-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S10x1024 : Shape := ⟨2, ![10, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S10x1024 : S_.BroadcastsInDim S10x1024 (![] : Fin 0 → Fin S10x1024.rank)
  reducesTo_S10x1024_S_d0_1 : S10x1024.ReducesTo [0, 1] S_

variable [Facts]

def fn_part1 {F : FTy → Type} [FloatOps F] (main_arg4 : FVec F S10x1024 .f32) (main_v13 : IVec S_ 1) (main_v16 : IVec S10x1024 1) : IVec S_ 1 :=
  let main_c_5 : IVec S_ 1 := constantI S_ 1 1#1
  let main_v17 : IVec S_ 1 := (fun x v => Host.reduce IntOp.andi x v reducesTo_S10x1024_S_d0_1 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : FVec F S4x4096x1024 .f32) (main_arg3 : FVec F S10x1024 .f32) (main_arg4 : FVec F S10x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S10x1024 .f32 := Host.absf main_arg3
  let main_cst_4 : FVec F S_ .f32 := constant S_ .f32 0x7F800000#32
  let main_v15 : FVec F S10x1024 .f32 := broadcastInDim S10x1024 ![] bcast_S_S10x1024 main_cst_4
  let main_v16 : IVec S10x1024 1 := cmpf .olt main_v14 main_v15
  fn_part1 (F := F) main_arg4 main_v13 main_v16
-- ==== Kernel.lean ====
abbrev S4x4096x1024 : Shape := ⟨3, ![4, 4096, 1024]⟩
abbrev S10x1024 : Shape := ⟨2, ![10, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x1024 : Shape := ⟨2, ![1024, 1024]⟩
abbrev S1024x10 : Shape := ⟨2, ![1024, 10]⟩
abbrev S1024 : Shape := ⟨1, ![1024]⟩
abbrev S512x1024 : Shape := ⟨2, ![512, 1024]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S10x1024, .f32⟩
  | .hbm, ⟨4, _⟩ => ⟨S10x1024, .f32⟩
  | .hbm, ⟨5, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S10x1024, .f32⟩
  | .local _ .vmem, ⟨7, _⟩ => ⟨S10x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_26 : BitVec 32 := 0#32
  let v45 : BitVec 1 := Scalar.cmpi .ne v44 c0_i32_26
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S10x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S10x1024_S10x1024_0_0 : ∀ a, (![0, 0] : Fin 2 → Nat) a + S10x1024.size a ≤ S10x1024.size a
  h_S10x1024 : 0 < S10x1024.numel
  reduces_S1024x10_S1024 : S1024x10.Reduces [1] S1024
  shapeCasts_S1024_S1024x1 : S1024.ShapeCasts S1024x1
  broadcasts_S1024x1_S1024x10 : S1024x1.Broadcasts S1024x10
  broadcasts_S1024x1_S1024x1024 : S1024x1.Broadcasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  broadcasts_S1024x1_S1024x512 : S1024x1.Broadcasts S1024x512
  shapeCasts_S1024x1024_S1x1024x1024 : S1024x1024.ShapeCasts S1x1024x1024
  dot_S1024x1024_S10x1024_S1024x10_1_1_0_0_n_n_wf : DotDims.WF S1024x1024 S10x1024 S1024x10 [1] [1] [0] [0] [] []
  dot_S1024x10_S10x1024_S1024x1024_1_0_0_1_n_n_wf : DotDims.WF S1024x10 S10x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .f32 = 32 ∨ (Rect.block (s := S4x4096x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x1024.size a
  hwx0_3 : ∀ i : grid0.Coords, EltTy.bits .f32 = 32 ∨ (Rect.block (s := S10x1024) S10x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x1024.size a ≤ S10x1024.size a
  hwx0_4 : ∀ i : grid0.Coords, EltTy.bits .f32 = 32 ∨ (Rect.block (s := S10x1024) S10x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x4096x1024.size a
  hwx0_5 : ∀ i : grid0.Coords, EltTy.bits .f32 = 32 ∨ (Rect.block (s := S4x4096x1024) S1x1024x1024.size (cc0_transform_5 i) (hinb0_5 i)).WholeWords (EltTy.packing .f32)

variable [Facts₀]

def dot_S1024x1024_S10x1024_S1024x10_1_1_0_0_n_n : DotDims S1024x1024 S10x1024 S1024x10 where
  lhsContracting := [1]
  rhsContracting := [1]
  lhsNonContracting := [0]
  rhsNonContracting := [0]
  lhsBatch := []
  rhsBatch := []
  wf := dot_S1024x1024_S10x1024_S1024x10_1_1_0_0_n_n_wf
def dot_S1024x10_S10x1024_S1024x1024_1_0_0_1_n_n : DotDims S1024x10 S10x1024 S1024x1024 where
  lhsContracting := [1]
  rhsContracting := [0]
  lhsNonContracting := [0]
  rhsNonContracting := [1]
  lhsBatch := []
  rhsBatch := []
  wf := dot_S1024x10_S10x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S10x1024 : Shape := ⟨2, ![10, 1024]⟩
abbrev S1x10x1024 : Shape := ⟨3, ![1, 10, 1024]⟩
abbrev S4x10x1024 : Shape := ⟨3, ![4, 10, 1024]⟩
abbrev S4x4106x1024 : Shape := ⟨3, ![4, 4106, 1024]⟩
abbrev S4x4096x4106 : Shape := ⟨3, ![4, 4096, 4106]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S10x1024, .f32⟩
  | .hbm, ⟨4, _⟩ => ⟨S10x1024, .f32⟩
  | .hbm, ⟨5, _⟩ => ⟨S1x10x1024, .f32⟩
  | .hbm, ⟨6, _⟩ => ⟨S4x10x1024, .f32⟩
  | .hbm, ⟨7, _⟩ => ⟨S1x10x1024, .f32⟩
  | .hbm, ⟨8, _⟩ => ⟨S4x10x1024, .f32⟩
  | .hbm, ⟨9, _⟩ => ⟨S4x4106x1024, .f32⟩
  | .hbm, ⟨10, _⟩ => ⟨S4x4106x1024, .f32⟩
  | .hbm, ⟨11, _⟩ => ⟨S4x4096x4106, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4106, .f32⟩
  | .hbm, ⟨19, _⟩ => ⟨S4x4096x4106, .f32⟩
  | .hbm, ⟨20, _⟩ => ⟨S4x4096x4106, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4106, .f32⟩
  | .hbm, ⟨25, _⟩ => ⟨S4x4096x4106, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S10x1024_S1x10x1024_1_2 : S10x1024.BroadcastsInDim S1x10x1024 (![1, 2] : Fin 2 → Fin S1x10x1024.rank)
  bcast_S1x10x1024_S4x10x1024_0_1_2 : S1x10x1024.BroadcastsInDim S4x10x1024 (![0, 1, 2] : Fin 3 → Fin S4x10x1024.rank)
  concatenates_S4x10x1024_S4x4096x1024_S4x4106x1024_d1 : Shape.Concatenates [S4x10x1024, S4x4096x1024] S4x4106x1024 1
  reducesTo_S4x4096x4106_S4x4096_d2 : S4x4096x4106.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4106_0_1_2 : S4x4096x1.BroadcastsInDim S4x4096x4106 (![0, 1, 2] : Fin 3 → Fin S4x4096x4106.rank)
  dot_S4x4096x1024_S4x4106x1024_S4x4096x4106_2_2_1_1_0_0_wf : DotDims.WF S4x4096x1024 S4x4106x1024 S4x4096x4106 [2] [2] [1] [1] [0] [0]
  dot_S4x4096x4106_S4x4106x1024_S4x4096x1024_2_1_1_2_0_0_wf : DotDims.WF S4x4096x4106 S4x4106x1024 S4x4096x1024 [2] [1] [1] [2] [0] [0]

variable [Facts₀]

def dot_S4x4096x1024_S4x4106x1024_S4x4096x4106_2_2_1_1_0_0 : DotDims S4x4096x1024 S4x4106x1024 S4x4096x4106 where
  lhsContracting := [2]
  rhsContracting := [2]
  lhsNonContracting := [1]
  rhsNonContracting := [1]
  lhsBatch := [0]
  rhsBatch := [0]
  wf := dot_S4x4096x1024_S4x4106x1024_S4x4096x4106_2_2_1_1_0_0_wf
def dot_S4x4096x4106_S4x4106x1024_S4x4096x1024_2_1_1_2_0_0 : DotDims S4x4096x4106 S4x4106x1024 S4x4096x1024 where
  lhsContracting := [2]
  rhsContracting := [1]
  lhsNonContracting := [1]
  rhsNonContracting := [2]
  lhsBatch := [0]
  rhsBatch := [0]
  wf := dot_S4x4096x4106_S4x4106x1024_S4x4096x1024_2_1_1_2_0_0_wf

class Facts : Prop extends Facts₀ where

variable [Facts]
-- ==== Proof.KernelPieces.lean ====
/-
  What one grid point of the blocked attention kernel leaves in the three arrays it carries from point to point
  — the running row maximum `m`, the running denominator `l`, the running numerator `a` — and in its output
  block, as pure functions of the blocks it loads and of what the point before left.

  The points of one query tile visit the key/value tiles in order.  At the first of them (case A) the three
  arrays are reset (`m = -∞`, `l = 0`, `a = 0`), updated by the ten prefix rows and then by tile 0; at a middle
  point (case B) they are updated by the point's tile; at the last (case C) they are updated by the last tile and
  the quotient `a / l` is stored to the output block.  An update by a chunk of key/value rows with scores `s` is
      m' = max m (row maximum of s),   l' = exp (m - m') · l + row sum of exp (s - m'),
      a' = exp (m - m') · a + exp (s - m') · (the chunk's value rows).
  Each array is stored whole, so of several stores at one point only the last is left, and a load after a store
  reads what that store wrote: that is all the lemmas below use.  Stated at any float instance.
-/
import proofs.«150562_j42571715837963_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Reading a buffer back through its whole-shape rectangle after several stores, the LAST of which (the list's
    head) went through that same whole-shape rectangle, gives the last store's value: it shadows what came before. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## One tile's update of the running state, as pure functions of the blocks it loads

`q` is the query block, `k` and `v` the key and value tiles, `m`, `l`, `a` the running row maximum, the running
denominator and the running numerator as the update finds them. -/

/-- The new running maximum: the old one against the row maximum of the tile's scores. -/
def tileMax (q : Vec F S1x1024x1024 .f32) (k : Vec F S1x512x1024 .f32) (m : Vec F S1024x1 .f32) : Vec F S1024x1 .f32 :=
  k0_pay2 (k0_pay17 q k m)

/-- The new running denominator: the old one rescaled, plus the row sums of the tile's shifted exponentials. -/
def tileDen (q : Vec F S1x1024x1024 .f32) (k : Vec F S1x512x1024 .f32) (m l : Vec F S1024x1 .f32) : Vec F S1024x1 .f32 :=
  k0_pay20 q k m m l

/-- The new running numerator: the old one rescaled, plus the tile's shifted exponentials times its value rows. -/
def tileNum (q : Vec F S1x1024x1024 .f32) (k v : Vec F S1x512x1024 .f32) (m : Vec F S1024x1 .f32)
    (a : Vec F S1024x1024 .f32) : Vec F S1024x1024 .f32 :=
  k0_pay1 (k0_pay18 q k m m) (k0_pay21 v) (k0_pay22 q k m) (constant S1024x1024 .f32 0x00000000#32) a

/-- The quotient the last tile's point stores: numerator over denominator, row by row. -/
def tileOut (a : Vec F S1024x1024 .f32) (l : Vec F S1024x1 .f32) : Vec F S1x1024x1024 .f32 := k0_pay3 a l

/-! ## The reset and the prefix's update, as pure functions -/

/-- The running maximum after the reset: every row at the format's negative infinity. -/
abbrev resetMax : Vec F S1024x1 .f32 := k0_pay4
/-- The running denominator after the reset: every row zero. -/
abbrev resetDen : Vec F S1024x1 .f32 := k0_pay5
/-- The running numerator after the reset: every entry zero. -/
abbrev resetNum : Vec F S1024x1024 .f32 := k0_pay6

/-- The running maximum after the ten prefix rows: the old one against the row maximum of the prefix scores. -/
def prefMax (q : Vec F S1x1024x1024 .f32) (pk : Vec F S10x1024 .f32) (m : Vec F S1024x1 .f32) : Vec F S1024x1 .f32 :=
  k0_pay15 (k0_pay9 q pk m)

/-- The running denominator after the prefix rows. -/
def prefDen (q : Vec F S1x1024x1024 .f32) (pk : Vec F S10x1024 .f32) (m l : Vec F S1024x1 .f32) : Vec F S1024x1 .f32 :=
  k0_pay13 (k0_pay11 q pk m) (k0_pay12 q pk m m l)

/-- The running numerator after the prefix rows. -/
def prefNum (q : Vec F S1x1024x1024 .f32) (pk pv : Vec F S10x1024 .f32) (m : Vec F S1024x1 .f32)
    (a : Vec F S1024x1024 .f32) : Vec F S1024x1024 .f32 :=
  k0_pay14 (k0_pay7 pv) (k0_pay10 q pk m m) (k0_pay11 q pk m) a

theorem sA_0 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) :
    sout0_A_0 c i arg3 harg3 arg4 harg4 arg5 harg5 arg6 harg6 arg7 harg7 arg8 harg8 arg9 harg9 arg10 harg10 arg11 harg11 hc0 hc1 x0 x1 x2 x3 x4 = tileMax x0 x1 (prefMax x0 x3 resetMax) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2]
  simp only [readCov_cons_whole (S := S1024x1) _ hz2, readCov_cons_whole (S := S1024x1024) _ hz2,
    View.readAt_eq_ld, harg3.read_unread, harg4.read_unread, harg5.read_unread, harg6.read_unread, harg7.read_unread,
    View.ld_unit_zero (S := S1x1024x1024) hz3, View.ld_unit_zero (S := S1x512x1024) hz3, View.ld_unit_zero (S := S10x1024) hz2]
  rfl

theorem sA_1 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) :
    sout0_A_1 c i arg3 harg3 arg4 harg4 arg5 harg5 arg6 harg6 arg7 harg7 arg8 harg8 arg9 harg9 arg10 harg10 arg11 harg11 hc0 hc1 x0 x1 x2 x3 x4 = tileDen x0 x1 (prefMax x0 x3 resetMax) (prefDen x0 x3 resetMax resetDen) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2]
  simp only [readCov_cons_whole (S := S1024x1) _ hz2, readCov_cons_whole (S := S1024x1024) _ hz2,
    View.readAt_eq_ld, harg3.read_unread, harg4.read_unread, harg5.read_unread, harg6.read_unread, harg7.read_unread,
    View.ld_unit_zero (S := S1x1024x1024) hz3, View.ld_unit_zero (S := S1x512x1024) hz3, View.ld_unit_zero (S := S10x1024) hz2]
  rfl

theorem sA_2 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) :
    sout0_A_2 c i arg3 harg3 arg4 harg4 arg5 harg5 arg6 harg6 arg7 harg7 arg8 harg8 arg9 harg9 arg10 harg10 arg11 harg11 hc0 hc1 x0 x1 x2 x3 x4 = tileNum x0 x1 x2 (prefMax x0 x3 resetMax) (prefNum x0 x3 x4 resetMax resetNum) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1024) hz2]
  simp only [readCov_cons_whole (S := S1024x1) _ hz2, readCov_cons_whole (S := S1024x1024) _ hz2,
    View.readAt_eq_ld, harg3.read_unread, harg4.read_unread, harg5.read_unread, harg6.read_unread, harg7.read_unread,
    View.ld_unit_zero (S := S1x1024x1024) hz3, View.ld_unit_zero (S := S1x512x1024) hz3, View.ld_unit_zero (S := S10x1024) hz2]
  rfl

/-! ## Cases B and C -/

theorem sC_0 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 xs0 xs1 xs2 = tileMax x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem sC_1 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_C_1 c i arg3 harg3 arg4 harg4 arg5 harg5 arg6 harg6 arg7 harg7 arg8 harg8 arg9 harg9 arg10 harg10 arg11 harg11 hc0 hc1 x0 x1 x2 x3 x4 xs0 xs1 xs2 = tileDen x0 x1 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem sC_2 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_C_2 c i arg3 harg3 arg4 harg4 arg5 harg5 arg6 harg6 arg7 harg7 arg8 harg8 arg9 harg9 arg10 harg10 arg11 harg11 hc0 hc1 x0 x1 x2 x3 x4 xs0 xs1 xs2 = tileNum x0 x1 x2 xs0 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem sB_0 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 xs0 xs1 xs2 = tileMax x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem sB_1 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_B_1 c i arg3 harg3 arg4 harg4 arg5 harg5 arg6 harg6 arg7 harg7 arg8 harg8 arg9 harg9 arg10 harg10 arg11 harg11 hc0 hc1 x0 x1 x2 x3 x4 xs0 xs1 xs2 = tileDen x0 x1 xs0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem sB_2 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    sout0_B_2 c i arg3 harg3 arg4 harg4 arg5 harg5 arg6 harg6 arg7 harg7 arg8 harg8 arg9 harg9 arg10 harg10 arg11 harg11 hc0 hc1 x0 x1 x2 x3 x4 xs0 xs1 xs2 = tileNum x0 x1 x2 xs0 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

theorem oC_5 (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S10x1024 .f32) (harg6 : arg6.IsWhole) (arg7 : Memref sig .tc .vmem S10x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i) (x0 : Vec F S1x1024x1024 .f32) (x1 : Vec F S1x512x1024 .f32) (x2 : Vec F S1x512x1024 .f32) (x3 : Vec F S10x1024 .f32) (x4 : Vec F S10x1024 .f32) (xs0 : Vec F S1024x1 .f32) (xs1 : Vec F S1024x1 .f32) (xs2 : Vec F S1024x1024 .f32) :
    out0_C_5 c i arg3 harg3 arg4 harg4 arg5 harg5 arg6 harg6 arg7 harg7 arg8 harg8 arg9 harg9 arg10 harg10 arg11 harg11 hc0 hc1 x0 x1 x2 x3 x4 xs0 xs1 xs2 = tileOut (tileNum x0 x1 x2 xs0 xs2) (tileDen x0 x1 xs0 xs1) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz3, View.readCov_unit_zero (S := S1024x1024) _ hz2, View.readCov_unit_zero (S := S1024x1) _ hz2]
  simp only [View.readAt_eq_ld, harg3.read_unread, harg4.read_unread, harg5.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2]
  rfl

end Cert.KernelIdeal.Pieces
end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.RowOps.lean ====
/-
  Row operations of a two-axis block read at an index, on the extended reals: the maximum and the sum of a row
  over its lanes (a reduction over axis 1 of a `[1024, n]` block, read at row `r`, ranges over the entries
  `(r, c)`), and a vector `[a]` viewed as a column `[a, 1]`.  General in the lane count.
-/
import Idealize.ShloMosaic.Lib.Pipeline.Value
import Idealize.ShloMosaic.Lib.ValueLayout
import Idealize.ShloMosaic.Lib.ValueIdx
import Idealize.ShloMosaic.PureOps.Ideal.Laws

noncomputable section
open scoped BigOperators
namespace RowOps
open Idealize.ShloMosaic Idealize.ShloMosaic.ValueIdx

/-- An `[a]` array cast to a column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The f32 word of negative infinity is the least extended real. -/
theorem ninf : Ideal.ofBits .f32 0xFF800000#32 = (⊥ : EReal) := by simp [Ideal.ofBits, Ideal.ieee]

/-- The index a reduction over axis 1 of a `[1024, n]` block inserts at row `r`, lane `c`, is `(r, c)`. -/
theorem lift_row {n : ℕ} (h : (⟨2, ![1024, n]⟩ : Shape).Reduces [1] ⟨1, ![1024]⟩) (r : Fin 1024) (c : Fin n) :
    h.lift (ix1 r) c = ix2 r c := by
  funext a
  apply Fin.ext
  match a with
  | ⟨0, _⟩ => rfl
  | ⟨1, _⟩ => rfl

/-- A row maximum over the `n` lanes of a block, from negative infinity. -/
theorem rowMax_apply {n : ℕ} (src : FVec Ideal ⟨2, ![1024, n]⟩ .f32) (h : (⟨2, ![1024, n]⟩ : Shape).Reduces [1] ⟨1, ![1024]⟩)
    (hφ : FKind.Formats .f32) (hacc : (0xFF800000#32 : BitVec 32) = FKind.maximumf.neutral .f32 hφ) (r : Fin 1024) :
    multiReduction .maximumf [1] ⟨1, ![1024]⟩ src 0xFF800000#32 h hφ hacc (ix1 r)
      = (Finset.univ : Finset (Fin n)).fold max (⊥ : EReal) (fun c => src (ix2 r c)) := by
  refine (Ideal.multiReduction_maximumf_single src _ h hφ hacc (ix1 r)).trans ?_
  rw [show FloatOps.ofBits (F := Ideal) .f32 0xFF800000#32 = (⊥ : EReal) from ninf]
  refine congrArg (fun f => Finset.fold max (⊥ : EReal) f (Finset.univ : Finset (Fin n))) (funext fun c => ?_)
  exact congrArg src (lift_row h r c)

/-- A row sum over the `n` lanes of a block. -/
theorem rowSum_apply {n : ℕ} (src : FVec Ideal ⟨2, ![1024, n]⟩ .f32) (h : (⟨2, ![1024, n]⟩ : Shape).Reduces [1] ⟨1, ![1024]⟩)
    (hφ : FKind.Formats .f32) (hacc : (0x00000000#32 : BitVec 32) = FKind.add.neutral .f32 hφ) (r : Fin 1024) :
    multiReduction .add [1] ⟨1, ![1024]⟩ src 0x00000000#32 h hφ hacc (ix1 r) = ∑ c : Fin n, src (ix2 r c) := by
  refine (Ideal.multiReduction_add_single src _ h hφ hacc (ix1 r)).trans ?_
  exact Finset.sum_congr rfl fun c _ => congrArg src (lift_row h r c)

end RowOps
end
-- ==== Proof.KernelSteps.lean ====
/-
  The arithmetic of one grid point of the blocked attention kernel, read entry by entry on the extended reals.
  For query row `r` of the point's query block, key row `c` of its key/value tile (or prefix row `j`) and column `h`:
    a score is the sum over the 1024 features of query entry times key entry;
    the new running maximum is the old one against the maximum of the row's scores (a fold of `max` from `-∞`);
    the rescaling factor is `exp (old maximum - new maximum)`, a shifted exponential `exp (score - new maximum)`;
    the new denominator is factor · old denominator + the row sum of the shifted exponentials;
    the new numerator at `(r, h)` is factor · old numerator + the sum over the chunk's rows of shifted
      exponential times value entry;
    the stored quotient at `(r, h)` is numerator over the row's denominator.
  A change of float format is the identity on the extended reals, a matrix product into a zero block is a plain
  sum, and a block `[1, a, b]` is its `[a, b]` matrix.
-/
import proofs.«150562_j42571715837963_2_alg».proof.Proof.Gen.KernelIdeal.Skeleton
import proofs.«150562_j42571715837963_2_alg».proof.Proof.LibMatmulNT
import proofs.«150562_j42571715837963_2_alg».proof.Proof.LibMatmulNN
import proofs.«150562_j42571715837963_2_alg».proof.Proof.LibColumnLayout
import proofs.«150562_j42571715837963_2_alg».proof.Proof.RowOps
import Idealize.ShloMosaic.Lib.ValueLayout
import Idealize.ShloMosaic.Lib.ValueIdx
import Idealize.ShloMosaic.PureOps.Ideal.Laws

noncomputable section
open scoped BigOperators
namespace Cert.KernelIdeal.Steps
open Cert.KernelIdeal Cert.KernelIdeal.Gen Idealize.ShloMosaic Idealize.ShloMosaic.ValueIdx RowOps

abbrev u0 : Fin 1 := 0

/-! ## One key/value tile -/

/-- Entry `(r, c)` of a tile's score block: query row `r` against key row `c` of the tile. -/
theorem tileScore_apply (q : Vec Ideal S1x1024x1024 .f32) (k : Vec Ideal S1x512x1024 .f32) (r : Fin 1024) (c : Fin 512) :
    k0_pay16 (F := Ideal) q k (ix2 r c) = ∑ d : Fin 1024, q (ix3 u0 r d) * k (ix3 u0 c d) := by
  unfold k0_pay16
  refine (LibMatmulNT.matmul_zero_apply 1024 1024 512 none _ _ r c).trans ?_
  refine Finset.sum_congr rfl fun d _ => ?_
  rw [truncf_apply, truncf_apply, shapeCast_1ab_ab_apply, shapeCast_1ab_ab_apply]

/-- The new running maximum of row `r`: the old one against the maximum of the row's tile scores. -/
theorem tileMax_apply (q : Vec Ideal S1x1024x1024 .f32) (k : Vec Ideal S1x512x1024 .f32) (m : Vec Ideal S1024x1 .f32) (r : Fin 1024) (u : Fin 1) :
    k0_pay17 (F := Ideal) q k m (ix2 r u)
      = max (m (ix2 r u)) ((Finset.univ : Finset (Fin 512)).fold max (⊥ : EReal) (fun c => k0_pay16 (F := Ideal) q k (ix2 r c))) := by
  unfold k0_pay17
  simp only [maximumf_apply, shapeCast_a_a1_apply]
  exact congrArg (max _) (rowMax_apply _ _ _ _ r)

/-- The rescaling factor of row `r`: the exponential of the old maximum less the new one. -/
theorem tileAlpha_apply (q : Vec Ideal S1x1024x1024 .f32) (k : Vec Ideal S1x512x1024 .f32) (m m' : Vec Ideal S1024x1 .f32) (r : Fin 1024) (u : Fin 1) :
    k0_pay18 (F := Ideal) q k m m' (ix2 r u) = Ideal.exp (m' (ix2 r u) - k0_pay17 (F := Ideal) q k m (ix2 r u)) := rfl

/-- The shifted exponential of score `(r, c)`. -/
theorem tileP_apply (q : Vec Ideal S1x1024x1024 .f32) (k : Vec Ideal S1x512x1024 .f32) (m : Vec Ideal S1024x1 .f32) (r : Fin 1024) (c : Fin 512) :
    k0_pay19 (F := Ideal) q k m (ix2 r c) = Ideal.exp (k0_pay16 (F := Ideal) q k (ix2 r c) - k0_pay17 (F := Ideal) q k m (ix2 r u0)) := by
  unfold k0_pay19
  show Ideal.exp (k0_pay16 (F := Ideal) q k (ix2 r c) - broadcastTo S1024x512 (k0_pay17 (F := Ideal) q k m) broadcasts_S1024x1_S1024x512 (ix2 r c)) = _
  rw [broadcastTo_a1_ab_apply]

/-- The new running denominator of row `r`. -/
theorem tileDen_apply (q : Vec Ideal S1x1024x1024 .f32) (k : Vec Ideal S1x512x1024 .f32) (m m' l : Vec Ideal S1024x1 .f32) (r : Fin 1024) (u : Fin 1) :
    k0_pay20 (F := Ideal) q k m m' l (ix2 r u)
      = k0_pay18 (F := Ideal) q k m m' (ix2 r u) * l (ix2 r u) + ∑ c : Fin 512, k0_pay19 (F := Ideal) q k m (ix2 r c) := by
  unfold k0_pay20
  simp only [shapeCast_self, addf_apply, mulf_apply, shapeCast_a_a1_apply]
  refine congrArg₂ (fun a b : EReal => a + b) rfl ?_
  exact rowSum_apply _ _ _ _ r

/-- The new running numerator at `(r, h)`. -/
theorem tileNum_apply (al : FVec Ideal S1024x1 .f32) (q : Vec Ideal S1x1024x1024 .f32) (k v : Vec Ideal S1x512x1024 .f32) (m : Vec Ideal S1024x1 .f32)
    (a : Vec Ideal S1024x1024 .f32) (r h : Fin 1024) :
    k0_pay1 (F := Ideal) al (k0_pay21 v) (k0_pay22 q k m) (constant (F := Ideal) S1024x1024 .f32 0x00000000#32) a (ix2 r h)
      = al (ix2 r u0) * a (ix2 r h) + ∑ c : Fin 512, k0_pay19 (F := Ideal) q k m (ix2 r c) * v (ix3 u0 c h) := by
  unfold k0_pay1
  simp only [shapeCast_self, addf_apply, mulf_apply, broadcastTo_a1_ab_apply]
  refine congrArg₂ (fun a b : EReal => a + b) rfl ?_
  refine (LibMatmulNN.matmul_zero_apply 1024 512 1024 none _ _ r h).trans ?_
  refine Finset.sum_congr rfl fun c _ => ?_
  unfold k0_pay22 k0_pay21
  rw [truncf_apply, truncf_apply, shapeCast_1ab_ab_apply]

/-- A whole-shape cast to the same shape changes nothing (the stored maximum). -/
theorem pay2_eq (x : FVec Ideal S1024x1 .f32) : k0_pay2 (F := Ideal) x = x := by
  unfold k0_pay2; exact shapeCast_self _ _

/-- The stored quotient at `(r, h)`: numerator over the row's denominator. -/
theorem tileOut_apply (a : Vec Ideal S1024x1024 .f32) (l : Vec Ideal S1024x1 .f32) (r h : Fin 1024) :
    k0_pay3 (F := Ideal) a l (ix3 u0 r h) = Ideal.div (a (ix2 r h)) (l (ix2 r u0)) := by
  unfold k0_pay3
  simp only [shapeCast_ab_1ab_apply, divf_apply, broadcastTo_a1_ab_apply]

/-! ## The ten prefix rows -/

theorem prefScore_apply (q : Vec Ideal S1x1024x1024 .f32) (pk : Vec Ideal S10x1024 .f32) (r : Fin 1024) (j : Fin 10) :
    k0_pay8 (F := Ideal) q pk (ix2 r j) = ∑ d : Fin 1024, q (ix3 u0 r d) * pk (ix2 j d) := by
  unfold k0_pay8
  refine (LibMatmulNT.matmul_zero_apply 1024 1024 10 none _ _ r j).trans ?_
  refine Finset.sum_congr rfl fun d _ => ?_
  rw [truncf_apply, truncf_apply, shapeCast_1ab_ab_apply]

theorem prefMax_apply (q : Vec Ideal S1x1024x1024 .f32) (pk : Vec Ideal S10x1024 .f32) (m : Vec Ideal S1024x1 .f32) (r : Fin 1024) (u : Fin 1) :
    k0_pay9 (F := Ideal) q pk m (ix2 r u)
      = max (m (ix2 r u)) ((Finset.univ : Finset (Fin 10)).fold max (⊥ : EReal) (fun j => k0_pay8 (F := Ideal) q pk (ix2 r j))) := by
  unfold k0_pay9
  simp only [maximumf_apply, shapeCast_a_a1_apply]
  exact congrArg (max _) (rowMax_apply _ _ _ _ r)

theorem prefAlpha_apply (q : Vec Ideal S1x1024x1024 .f32) (pk : Vec Ideal S10x1024 .f32) (m m' : Vec Ideal S1024x1 .f32) (r : Fin 1024) (u : Fin 1) :
    k0_pay10 (F := Ideal) q pk m m' (ix2 r u) = Ideal.exp (m' (ix2 r u) - k0_pay9 (F := Ideal) q pk m (ix2 r u)) := rfl

theorem prefP_apply (q : Vec Ideal S1x1024x1024 .f32) (pk : Vec Ideal S10x1024 .f32) (m : Vec Ideal S1024x1 .f32) (r : Fin 1024) (j : Fin 10) :
    k0_pay11 (F := Ideal) q pk m (ix2 r j) = Ideal.exp (k0_pay8 (F := Ideal) q pk (ix2 r j) - k0_pay9 (F := Ideal) q pk m (ix2 r u0)) := by
  unfold k0_pay11
  show Ideal.exp (k0_pay8 (F := Ideal) q pk (ix2 r j) - broadcastTo S1024x10 (k0_pay9 (F := Ideal) q pk m) broadcasts_S1024x1_S1024x10 (ix2 r j)) = _
  rw [broadcastTo_a1_ab_apply]

theorem prefScaled_apply (q : Vec Ideal S1x1024x1024 .f32) (pk : Vec Ideal S10x1024 .f32) (m m' l : Vec Ideal S1024x1 .f32) (r : Fin 1024) (u : Fin 1) :
    k0_pay12 (F := Ideal) q pk m m' l (ix2 r u) = k0_pay10 (F := Ideal) q pk m m' (ix2 r u) * l (ix2 r u) := rfl

theorem prefDen_apply (p : FVec Ideal S1024x10 .f32) (x : FVec Ideal S1024x1 .f32) (r : Fin 1024) (u : Fin 1) :
    k0_pay13 (F := Ideal) p x (ix2 r u) = x (ix2 r u) + ∑ j : Fin 10, p (ix2 r j) := by
  unfold k0_pay13
  simp only [shapeCast_self, addf_apply, shapeCast_a_a1_apply]
  refine congrArg₂ (fun a b : EReal => a + b) rfl ?_
  exact rowSum_apply _ _ _ _ r

theorem prefNum_apply (pv : Vec Ideal S10x1024 .f32) (al : FVec Ideal S1024x1 .f32) (p : FVec Ideal S1024x10 .f32) (a : Vec Ideal S1024x1024 .f32) (r h : Fin 1024) :
    k0_pay14 (F := Ideal) (k0_pay7 pv) al p a (ix2 r h)
      = al (ix2 r u0) * a (ix2 r h) + ∑ j : Fin 10, p (ix2 r j) * pv (ix2 j h) := by
  unfold k0_pay14
  simp only [shapeCast_self, addf_apply, mulf_apply, broadcastTo_a1_ab_apply]
  refine congrArg₂ (fun a b : EReal => a + b) rfl ?_
  refine (LibMatmulNN.matmul_zero_apply 1024 10 1024 none _ _ r h).trans ?_
  refine Finset.sum_congr rfl fun j _ => ?_
  unfold k0_pay7
  rw [truncf_apply, truncf_apply]

theorem pay15_eq (x : FVec Ideal S1024x1 .f32) : k0_pay15 (F := Ideal) x = x := by
  unfold k0_pay15; exact shapeCast_self _ _

/-! ## The reset -/

theorem resetMax_apply (i : S1024x1.Idx) : k0_pay4 (F := Ideal) i = (⊥ : EReal) := by
  unfold k0_pay4
  simp only [shapeCast_self, broadcast_apply]
  exact ninf

theorem resetDen_apply (i : S1024x1.Idx) : k0_pay5 (F := Ideal) i = (0 : EReal) := by
  unfold k0_pay5
  simp only [shapeCast_self, broadcast_apply]
  exact Ideal.ofBits_zero_f32

theorem resetNum_apply (i : S1024x1024.Idx) : k0_pay6 (F := Ideal) i = (0 : EReal) := by
  unfold k0_pay6
  simp only [shapeCast_self, broadcast_apply]
  exact Ideal.ofBits_zero_f32

end Cert.KernelIdeal.Steps
end
-- ==== Proof.Blocks.lean ====
/-
  The window arithmetic of the blocked attention kernel.

  The grid is 4 × 4 × 8: batch b, query tile qi (1024 query rows each), key/value tile kv (512 key/value rows
  each). Point t of the row-major enumeration is t = 32·b + 8·qi + kv, so b = t / 32, qi = (t / 8) mod 4 and
  kv = t mod 8.

  Inputs. At point t the query block is rows 1024·qi … 1024·qi + 1023 of batch b of the query array, the key and
  value blocks are rows 512·kv … 512·kv + 511 of batch b of the key and value arrays, and the two prefix blocks are
  the whole prefix arrays. A block's coordinate on an axis is (block index) × (block extent) + (coordinate inside
  the block); the block indices are decided once over the 128 points.

  Output. The result block of point t covers rows 1024·qi … 1024·qi + 1023 of batch b of the result array and is
  written back exactly at the points with kv = 7, the last key/value tile. Those sixteen blocks tile the result
  array: index (b, ρ, h) lies in the block of the point 32·b + 8·(ρ / 1024) + 7. So if at each of those points the
  block holds a fixed whole-array function restricted to the block, the result array after the run is that function.
-/
import proofs.«150562_j42571715837963_2_alg».proof.Proof.Gen.KernelIdeal.Value
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F] (m : (ℓ : Loc nD τ sig) → Buf (Elt F) ℓ)

/-- The grid has 4 · 4 · 8 = 128 points. -/
theorem lt_128 (t : Fin cfg0.N) : t.val < 128 := lt_of_lt_of_eq t.isLt (show cfg0.N = 128 from N_0)

/-- The batch of point t = 32·b + 8·qi + kv. -/
abbrev bOf (t : Fin cfg0.N) : Fin 4 := ⟨t.val / 32, by have := lt_128 t; omega⟩
/-- Row r of the query tile of point t, as a row of the 4096 query rows. -/
abbrev qRow (t : Fin cfg0.N) (r : Fin 1024) : Fin 4096 := ⟨1024 * ((t.val / 8) % 4) + r.val, by have := r.isLt; omega⟩
/-- Row k of the key/value tile of point t, as a row of the 4096 key/value rows. -/
abbrev kRow (t : Fin cfg0.N) (k : Fin 512) : Fin 4096 := ⟨512 * (t.val % 8) + k.val, by have := k.isLt; omega⟩

/-- The block index of the query window at each point: (batch, query tile, 0). -/
theorem index0 : ∀ t : Fin cfg0.N, win0_0.index t (0 : Fin 3) = t.val / 32 ∧ win0_0.index t (1 : Fin 3) = (t.val / 8) % 4
    ∧ win0_0.index t (2 : Fin 3) = 0 :=
  (by decide +kernel : ∀ t : Fin grid0.N, _)

/-- The query block of point t at (0, r, d) is the query array at (batch, 1024·(query tile) + r, d). -/
theorem iblk0 (c : Dev nD) (t : Fin cfg0.N) (r d : Fin 1024) :
    (iblk m c 0 t : Vec F S1x1024x1024 .f32) (ix3 (0 : Fin 1) r d)
      = m ((c : Thread nD τ).loc main_arg0) (ix3 (bOf t) (qRow t r) d) := by
  obtain ⟨e0, e1, e2⟩ := index0 t
  unfold iblk
  rw [View.read_apply]
  show V m c main_arg0 _ = _
  unfold V
  congr 1
  funext a
  apply Fin.ext
  match a with
  | ⟨0, _⟩ => show win0_0.index t (0 : Fin 3) * 1 + 1 * 0 = t.val / 32; omega
  | ⟨1, _⟩ => show win0_0.index t (1 : Fin 3) * 1024 + 1 * r.val = 1024 * ((t.val / 8) % 4) + r.val; omega
  | ⟨2, _⟩ => show win0_0.index t (2 : Fin 3) * 1024 + 1 * d.val = d.val; omega

/-- The block index of the key window at each point: (batch, key/value tile, 0). -/
theorem index1 : ∀ t : Fin cfg0.N, win0_1.index t (0 : Fin 3) = t.val / 32 ∧ win0_1.index t (1 : Fin 3) = t.val % 8
    ∧ win0_1.index t (2 : Fin 3) = 0 :=
  (by decide +kernel : ∀ t : Fin grid0.N, _)

/-- The key block of point t at (0, k, d) is the key array at (batch, 512·(key/value tile) + k, d). -/
theorem iblk1 (c : Dev nD) (t : Fin cfg0.N) (k : Fin 512) (d : Fin 1024) :
    (iblk m c 1 t : Vec F S1x512x1024 .f32) (ix3 (0 : Fin 1) k d)
      = m ((c : Thread nD τ).loc main_arg1) (ix3 (bOf t) (kRow t k) d) := by
  obtain ⟨e0, e1, e2⟩ := index1 t
  unfold iblk
  rw [View.read_apply]
  show V m c main_arg1 _ = _
  unfold V
  congr 1
  funext a
  apply Fin.ext
  match a with
  | ⟨0, _⟩ => show win0_1.index t (0 : Fin 3) * 1 + 1 * 0 = t.val / 32; omega
  | ⟨1, _⟩ => show win0_1.index t (1 : Fin 3) * 512 + 1 * k.val = 512 * (t.val % 8) + k.val; omega
  | ⟨2, _⟩ => show win0_1.index t (2 : Fin 3) * 1024 + 1 * d.val = d.val; omega

/-- The block index of the value window at each point: (batch, key/value tile, 0). -/
theorem index2 : ∀ t : Fin cfg0.N, win0_2.index t (0 : Fin 3) = t.val / 32 ∧ win0_2.index t (1 : Fin 3) = t.val % 8
    ∧ win0_2.index t (2 : Fin 3) = 0 :=
  (by decide +kernel : ∀ t : Fin grid0.N, _)

/-- The value block of point t at (0, k, d) is the value array at (batch, 512·(key/value tile) + k, d). -/
theorem iblk2 (c : Dev nD) (t : Fin cfg0.N) (k : Fin 512) (d : Fin 1024) :
    (iblk m c 2 t : Vec F S1x512x1024 .f32) (ix3 (0 : Fin 1) k d)
      = m ((c : Thread nD τ).loc main_arg2) (ix3 (bOf t) (kRow t k) d) := by
  obtain ⟨e0, e1, e2⟩ := index2 t
  unfold iblk
  rw [View.read_apply]
  show V m c main_arg2 _ = _
  unfold V
  congr 1
  funext a
  apply Fin.ext
  match a with
  | ⟨0, _⟩ => show win0_2.index t (0 : Fin 3) * 1 + 1 * 0 = t.val / 32; omega
  | ⟨1, _⟩ => show win0_2.index t (1 : Fin 3) * 512 + 1 * k.val = 512 * (t.val % 8) + k.val; omega
  | ⟨2, _⟩ => show win0_2.index t (2 : Fin 3) * 1024 + 1 * d.val = d.val; omega

/-- The prefix-key window is the whole prefix-key array at every point: block index (0, 0). -/
theorem index3 : ∀ t : Fin cfg0.N, win0_3.index t (0 : Fin 2) = 0 ∧ win0_3.index t (1 : Fin 2) = 0 :=
  (by decide +kernel : ∀ t : Fin grid0.N, _)

/-- The prefix-key block of any point at (j, d) is the prefix-key array at (j, d). -/
theorem iblk3 (c : Dev nD) (t : Fin cfg0.N) (j : Fin 10) (d : Fin 1024) :
    (iblk m c 3 t : Vec F S10x1024 .f32) (ix2 j d) = m ((c : Thread nD τ).loc main_arg3) (ix2 j d) := by
  obtain ⟨e0, e1⟩ := index3 t
  unfold iblk
  rw [View.read_apply]
  show V m c main_arg3 _ = _
  unfold V
  congr 1
  funext a
  apply Fin.ext
  match a with
  | ⟨0, _⟩ => show win0_3.index t (0 : Fin 2) * 10 + 1 * j.val = j.val; omega
  | ⟨1, _⟩ => show win0_3.index t (1 : Fin 2) * 1024 + 1 * d.val = d.val; omega

/-- The prefix-value window is the whole prefix-value array at every point: block index (0, 0). -/
theorem index4 : ∀ t : Fin cfg0.N, win0_4.index t (0 : Fin 2) = 0 ∧ win0_4.index t (1 : Fin 2) = 0 :=
  (by decide +kernel : ∀ t : Fin grid0.N, _)

/-- The prefix-value block of any point at (j, d) is the prefix-value array at (j, d). -/
theorem iblk4 (c : Dev nD) (t : Fin cfg0.N) (j : Fin 10) (d : Fin 1024) :
    (iblk m c 4 t : Vec F S10x1024 .f32) (ix2 j d) = m ((c : Thread nD τ).loc main_arg4) (ix2 j d) := by
  obtain ⟨e0, e1⟩ := index4 t
  unfold iblk
  rw [View.read_apply]
  show V m c main_arg4 _ = _
  unfold V
  congr 1
  funext a
  apply Fin.ext
  match a with
  | ⟨0, _⟩ => show win0_4.index t (0 : Fin 2) * 10 + 1 * j.val = j.val; omega
  | ⟨1, _⟩ => show win0_4.index t (1 : Fin 2) * 1024 + 1 * d.val = d.val; omega

/-! ## The output window -/

/-- The block index of the result window at each point: (batch, query tile, 0). -/
theorem index5 : ∀ t : Fin cfg0.N, win0_5.index t (0 : Fin 3) = t.val / 32 ∧ win0_5.index t (1 : Fin 3) = (t.val / 8) % 4
    ∧ win0_5.index t (2 : Fin 3) = 0 :=
  (by decide +kernel : ∀ t : Fin grid0.N, _)

/-- The result block is written back exactly at the points of the last key/value tile. -/
theorem flush5_iff : ∀ t : Fin cfg0.N, (cfg0.win 5).flush t = true ↔ t.val % 8 = 7 :=
  (by decide +kernel : ∀ t : Fin grid0.N, _)

/-- A block that holds a whole-array function at the rows of point t's query tile is that function read through
    the result window's block at t. -/
theorem cut5_eq_read (t : Fin cfg0.N) (Gf : S4x4096x1024.Idx → Elt F .f32) (X : Vec F S1x1024x1024 .f32)
    (hX : ∀ (r h : Fin 1024), X (ix3 (0 : Fin 1) r h) = Gf (ix3 (bOf t) (qRow t r) h)) :
    (cfg0.win 5).cut (grid0.coords t) X = ((cfg0.win 5).blk t).view.read (Elt F) Gf := by
  funext j
  have h0 : (j 0).val < 1 := (j 0).isLt
  have h1 : (j 1).val < 1024 := (j 1).isLt
  have h2 : (j 2).val < 1024 := (j 2).isLt
  obtain ⟨e0, e1, e2⟩ := index5 t
  have hx : (cfg0.win 5).xinj (grid0.coords t) j = ix3 (0 : Fin 1) (⟨(j 1).val, h1⟩ : Fin 1024) (⟨(j 2).val, h2⟩ : Fin 1024) := by
    funext a; apply Fin.ext
    match a with
    | ⟨0, _⟩ => show (j 0).val = 0; omega
    | ⟨1, _⟩ => rfl
    | ⟨2, _⟩ => rfl
  have he : ix3 (bOf t) (qRow t ⟨(j 1).val, h1⟩) (⟨(j 2).val, h2⟩ : Fin 1024) = ((cfg0.win 5).blk t).view.emb j := by
    funext a; apply Fin.ext
    match a with
    | ⟨0, _⟩ => show t.val / 32 = win0_5.index t (0 : Fin 3) * 1 + 1 * (j 0).val; omega
    | ⟨1, _⟩ => show 1024 * ((t.val / 8) % 4) + (j 1).val = win0_5.index t (1 : Fin 3) * 1024 + 1 * (j 1).val; omega
    | ⟨2, _⟩ => show (j 2).val = win0_5.index t (2 : Fin 3) * 1024 + 1 * (j 2).val; omega
  rw [View.read_apply]
  show X ((cfg0.win 5).xinj (grid0.coords t) j) = _
  exact (congrArg X hx).trans ((hX _ _).trans (congrArg Gf he))

/-- What a last-tile point writes back, when its block holds a whole-array function at the rows of its query tile:
    that function read through the point's block. -/
theorem flushed5_eq_read (c : Dev nD) (Gf : S4x4096x1024.Idx → Elt F .f32)
    (hG : ∀ t : Fin cfg0.N, t.val % 8 = 7 → ∀ (r h : Fin 1024),
      (outsAt0 m c t.val t.isLt).1 (ix3 (0 : Fin 1) r h) = Gf (ix3 (bOf t) (qRow t r) h))
    (t : Fin cfg0.N) (hf : (cfg0.win 5).flush t = true) :
    (dats m 0 c).flushed 5 t = ((cfg0.win 5).blk t).view.read (Elt F) Gf := by
  rw [Value.flushed5]
  exact cut5_eq_read t Gf _ (hG t ((flush5_iff t).mp hf))

/-! ## The cover -/

/-- An index of the result array is in point t's block iff each coordinate is in the block's range on its axis. -/
theorem mem_blk5 (t : Fin cfg0.N) (i : S4x4096x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v0).slice (win0_5.rect t)).set ↔ _
  rw [View.set_slice_whole, Rect.mem_set_unit]
  exact Iff.rfl

/-- Every index (b, ρ, h) of the result array lies in the block written back at the point 32·b + 8·(ρ / 1024) + 7. -/
theorem cover5 (i : S4x4096x1024.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  have hN : cfg0.N = 128 := N_0
  obtain ⟨t, tv⟩ : ∃ t : Fin cfg0.N, t.val = 32 * (i 0).val + 8 * ((i 1).val / 1024) + 7 := ⟨⟨_, by omega⟩, rfl⟩
  obtain ⟨e0, e1, e2⟩ := index5 t
  refine ⟨t, (flush5_iff t).mpr (by omega), ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 1024 ≤ (i 2).val ∧ (i 2).val < win0_5.index t (2 : Fin 3) * 1024 + 1024
    omega

/-! ## The whole result array -/

/-- If at every last-tile point the result block holds a whole-array function at the rows of the point's query
    tile, the result array after the run is that function. -/
theorem arrAt5_eq (c : Dev nD) (Gf : S4x4096x1024.Idx → Elt F .f32)
    (hG : ∀ t : Fin cfg0.N, t.val % 8 = 7 → ∀ (r h : Fin 1024),
      (outsAt0 m c t.val t.isLt).1 (ix3 (0 : Fin 1) r h) = Gf (ix3 (bOf t) (qRow t r) h)) :
    (dats m 0 c).arrAt 5 cfg0.N = Gf :=
  (dats m 0 c).arrAt_eq_of_cover 5 Gf (flushed5_eq_read m c Gf hG) cover5

end Cert.KernelIdeal.Blocks

end
-- ==== Proof.Spec.lean ====
/-
  Attention of every query row against a learned prefix of ten key/value rows followed by the 4096 key/value
  rows of its batch, with no scale and no mask, as ONE function of the five argument arrays.

  For batch `b`, query row `r` and output column `h`, with every argument entry a real number:
    score of prefix row `j`      σP j = ∑ d, Q[b,r,d] · PK[j,d]
    score of key row `j`         σK j = ∑ d, Q[b,r,d] · K[b,j,d]
    Z = ∑ j, exp (σP j) + ∑ j, exp (σK j)
    W = ∑ j, exp (σP j) · PV[j,h] + ∑ j, exp (σK j) · V[b,j,h]
    result = W / Z.
  This is the softmax-weighted average of the value rows written WITHOUT subtracting a maximum: for real scores
  and any real shift `μ`, `exp (σ - μ) = exp (-μ) · exp σ`, so a common shift cancels between numerator and
  denominator.  Both programs subtract a (different, running or global) maximum; neither maximum has to be
  identified, only known to be a real number.

  The 4096 key rows are summed tile by tile, 512 rows per tile, the partial sums `Zn n`, `Wn n` taking the
  prefix and the first `n` tiles: that is the order in which a blocked evaluation meets them.
-/
import Idealize.ShloMosaic.PureOps.Ideal.Laws
import Idealize.ShloMosaic.Lib.ValueIdx

noncomputable section

open scoped BigOperators

namespace FlashSpec

open Idealize.ShloMosaic Idealize.ShloMosaic.ValueIdx

/-- The shape of the query, key, value and result arrays. -/
abbrev SQ : Shape := ⟨3, ![4, 4096, 1024]⟩
/-- The shape of the two prefix arrays. -/
abbrev SP : Shape := ⟨2, ![10, 1024]⟩

/-- Every entry of an array of extended reals is a real number. -/
def IsReal {s : Shape} (x : s.Idx → EReal) : Prop := ∀ i, x i = ((x i).toReal : EReal)

/-- Row `512·t + c` of the 4096 key/value rows: offset `c` inside tile `t` (taken mod 4096, so that the
    expression is a row for every natural `t`; for `t < 8` nothing is reduced). -/
def tileRow (t : ℕ) (c : Fin 512) : Fin 4096 := ⟨(512 * t + c.val) % 4096, Nat.mod_lt _ (by norm_num)⟩

theorem tileRow_val {t : ℕ} (ht : t < 8) (c : Fin 512) : (tileRow t c).val = 512 * t + c.val := by
  have := c.isLt
  show (512 * t + c.val) % 4096 = _
  omega

section
variable (x0 x1 x2 : SQ.Idx → EReal) (x3 x4 : SP.Idx → EReal)

/-- The score of query row `(b, r)` against prefix key row `j`. -/
def scoreP (b : Fin 4) (r : Fin 4096) (j : Fin 10) : ℝ :=
  ∑ d : Fin 1024, (x0 (ix3 b r d)).toReal * (x3 (ix2 j d)).toReal

/-- The score of query row `(b, r)` against key row `j` of its batch. -/
def scoreK (b : Fin 4) (r : Fin 4096) (j : Fin 4096) : ℝ :=
  ∑ d : Fin 1024, (x0 (ix3 b r d)).toReal * (x1 (ix3 b j d)).toReal

/-- The sum of the exponentials of the scores over the prefix and the first `n` tiles of key rows. -/
def Zn (n : ℕ) (b : Fin 4) (r : Fin 4096) : ℝ :=
  ∑ j : Fin 10, Real.exp (scoreP x0 x3 b r j)
    + ∑ t ∈ Finset.range n, ∑ c : Fin 512, Real.exp (scoreK x0 x1 b r (tileRow t c))

/-- The exponential-weighted sum of column `h` of the value rows over the prefix and the first `n` tiles. -/
def Wn (n : ℕ) (b : Fin 4) (r : Fin 4096) (h : Fin 1024) : ℝ :=
  ∑ j : Fin 10, Real.exp (scoreP x0 x3 b r j) * (x4 (ix2 j h)).toReal
    + ∑ t ∈ Finset.range n, ∑ c : Fin 512,
        Real.exp (scoreK x0 x1 b r (tileRow t c)) * (x2 (ix3 b (tileRow t c) h)).toReal

theorem Zn_succ (n : ℕ) (b : Fin 4) (r : Fin 4096) :
    Zn x0 x1 x3 (n + 1) b r = Zn x0 x1 x3 n b r + ∑ c : Fin 512, Real.exp (scoreK x0 x1 b r (tileRow n c)) := by
  unfold Zn; rw [Finset.sum_range_succ, add_assoc]

theorem Wn_succ (n : ℕ) (b : Fin 4) (r : Fin 4096) (h : Fin 1024) :
    Wn x0 x1 x2 x3 x4 (n + 1) b r h = Wn x0 x1 x2 x3 x4 n b r h
      + ∑ c : Fin 512, Real.exp (scoreK x0 x1 b r (tileRow n c)) * (x2 (ix3 b (tileRow n c) h)).toReal := by
  unfold Wn; rw [Finset.sum_range_succ, add_assoc]

/-- The sum of exponentials is positive: it has the ten prefix terms. -/
theorem Zn_pos (n : ℕ) (b : Fin 4) (r : Fin 4096) : 0 < Zn x0 x1 x3 n b r := by
  unfold Zn
  refine add_pos_of_pos_of_nonneg (Finset.sum_pos (fun j _ => Real.exp_pos _) Finset.univ_nonempty) ?_
  exact Finset.sum_nonneg fun t _ => Finset.sum_nonneg fun c _ => (Real.exp_pos _).le

/-- The attention result at an index, as an extended real: `W / Z` over the prefix and all eight tiles. -/
def G : SQ.Idx → EReal := fun i =>
  ((Wn x0 x1 x2 x3 x4 8 (i 0) (i 1) (i 2) / Zn x0 x1 x3 8 (i 0) (i 1) : ℝ) : EReal)

end

end FlashSpec

end
-- ==== Proof.RowState.lean ====
/-
  The invariant of the blocked evaluation, row by row.  After the ten prefix rows and the first `n` tiles of key
  rows have been folded into the running state of query row `rr` of batch `b`, the running maximum is some real
  number `μ` (WHICH real is immaterial), the running denominator is `exp (-μ) · Zn n` and the running numerator at
  column `h` is `exp (-μ) · Wn n h`: the partial sums of the specification, all scaled by the one factor `exp (-μ)`
  that the final quotient cancels.
-/
import proofs.«150562_j42571715837963_2_alg».proof.Proof.Spec

noncomputable section

namespace FlashSpec

open Idealize.ShloMosaic Idealize.ShloMosaic.ValueIdx

/-- The running state `(mv, lv, av)` of query row `(b, rr)` is that of the prefix and the first `n` tiles. -/
def Good (x0 x1 x2 : SQ.Idx → EReal) (x3 x4 : SP.Idx → EReal) (n : ℕ) (b : Fin 4) (rr : Fin 4096)
    (mv lv : EReal) (av : Fin 1024 → EReal) : Prop :=
  ∃ μ : ℝ, mv = (μ : EReal) ∧ lv = ((Real.exp (-μ) * Zn x0 x1 x3 n b rr : ℝ) : EReal)
    ∧ ∀ h : Fin 1024, av h = ((Real.exp (-μ) * Wn x0 x1 x2 x3 x4 n b rr h : ℝ) : EReal)

end FlashSpec

end
-- ==== Proof.OnlineSoftmax.lean ====
/-
  The algebra of the online softmax update, on the extended reals.

  A blocked evaluation of softmax-weighted sums keeps a running maximum m, a running denominator l and a
  running numerator acc. Meeting a chunk of scores s k with values v k it takes the chunk's maximum, sets
  m' = max m (chunk maximum), and updates
      l'   = exp (m - m') · l   + ∑ k, exp (s k - m')
      acc' = exp (m - m') · acc + ∑ k, exp (s k - m') · v k,
  starting from m = -∞, l = 0, acc = 0, and ends with acc / l.

  For real scores and a real shift μ one has exp (σ - μ) = exp (-μ) · exp σ. So, whatever real numbers the
  running maxima are, the state after the chunks met so far is
      l = exp (-μ) · Z,   acc = exp (-μ) · W
  with Z = ∑ exp σ and W = ∑ exp σ · v over the scores met so far, and the final quotient is W / Z: the shift
  cancels. The maxima are never identified; they only have to be real numbers, which they are because every
  chunk is nonempty and has real scores.

  Everything below is stated on the extended reals, in the operations a program's term has there, and proved by
  carrying each subterm to a coercion of a real number.
-/
import Idealize.ShloMosaic.PureOps.Ideal.Laws

noncomputable section

open scoped BigOperators

namespace OnlineSoftmax

open Idealize.ShloMosaic

/-! ## Coercions through finite sums -/

/-- The coercion of a finite sum of reals is the sum of the coercions. -/
theorem coe_sum {κ : Type*} (t : Finset κ) (f : κ → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The same, read from the sum of coercions. -/
theorem sum_coe {κ : Type*} (t : Finset κ) (f : κ → ℝ) :
    ∑ k ∈ t, (f k : EReal) = ((∑ k ∈ t, f k : ℝ) : EReal) := (coe_sum t f).symm

/-- A sum of extended reals each of which is a named real is the coercion of the sum of those reals. -/
theorem sum_eq_coe {κ : Type*} (t : Finset κ) (F : κ → EReal) (f : κ → ℝ) (h : ∀ k ∈ t, F k = (f k : EReal)) :
    ∑ k ∈ t, F k = ((∑ k ∈ t, f k : ℝ) : EReal) := by
  rw [coe_sum]; exact Finset.sum_congr rfl h

/-- (e) A score is a real: the sum of products of real entries is the coercion of the real sum of products. -/
theorem sum_mul_coe {κ : Type*} [Fintype κ] (a b : κ → ℝ) :
    ∑ d, (a d : EReal) * (b d : EReal) = ((∑ d, a d * b d : ℝ) : EReal) :=
  sum_eq_coe _ _ _ fun d _ => (EReal.coe_mul (a d) (b d)).symm

/-! ## The exponential of a shifted real score -/

/-- The exponential of a difference of reals, on the extended reals. -/
theorem exp_coe_sub_coe (x μ : ℝ) :
    Ideal.exp ((x : EReal) - (μ : EReal)) = ((Real.exp (-μ) * Real.exp x : ℝ) : EReal) := by
  rw [← EReal.coe_sub, Ideal.exp_coe, ← Real.exp_add]
  congr 2; ring

/-- From the empty state the rescaling factor is zero. -/
theorem exp_bot_sub (y : EReal) : Ideal.exp ((⊥ : EReal) - y) = 0 := by
  rw [EReal.bot_sub, Ideal.exp_bot]

section chunk
variable {ι : Type*} [Fintype ι]

/-- The sum of the shifted exponentials of a chunk's scores. -/
theorem sum_exp_shift (s : ι → ℝ) (μ' : ℝ) :
    ∑ k, Ideal.exp ((s k : EReal) - (μ' : EReal)) = ((Real.exp (-μ') * ∑ k, Real.exp (s k) : ℝ) : EReal) := by
  rw [Finset.mul_sum]
  exact sum_eq_coe _ _ _ fun k _ => exp_coe_sub_coe (s k) μ'

/-- The sum of the shifted exponentials of a chunk's scores, each weighted by its value. -/
theorem sum_exp_shift_mul (s v : ι → ℝ) (μ' : ℝ) :
    ∑ k, Ideal.exp ((s k : EReal) - (μ' : EReal)) * (v k : EReal)
      = ((Real.exp (-μ') * ∑ k, Real.exp (s k) * v k : ℝ) : EReal) := by
  rw [Finset.mul_sum]
  refine sum_eq_coe _ _ _ fun k _ => ?_
  rw [exp_coe_sub_coe, ← EReal.coe_mul, mul_assoc]

/-! ## (a) The running maximum is a real number -/

/-- The maximum of a nonempty chunk of real scores, taken as a fold of max from -∞, is a real number. -/
theorem rowmax_real [Nonempty ι] (s : ι → ℝ) :
    ∃ r : ℝ, (Finset.univ : Finset ι).fold max (⊥ : EReal) (fun k => (s k : EReal)) = (r : EReal) := by
  have htop : (Finset.univ : Finset ι).fold max (⊥ : EReal) (fun k => (s k : EReal)) ≠ ⊤ := by
    refine ne_of_lt ?_
    rw [Finset.fold_max_lt]
    exact ⟨bot_lt_top, fun k _ => EReal.coe_lt_top (s k)⟩
  have hbot : (Finset.univ : Finset ι).fold max (⊥ : EReal) (fun k => (s k : EReal)) ≠ ⊥ := by
    obtain ⟨k0⟩ := ‹Nonempty ι›
    have hle : (s k0 : EReal) ≤ (Finset.univ : Finset ι).fold max (⊥ : EReal) (fun k => (s k : EReal)) :=
      (Finset.le_fold_max _).mpr (Or.inr ⟨k0, Finset.mem_univ k0, le_rfl⟩)
    exact ne_of_gt (lt_of_lt_of_le (EReal.bot_lt_coe (s k0)) hle)
  exact ⟨_, (EReal.coe_toReal htop hbot).symm⟩

/-- The same for a chunk of extended reals each of which is a real number. -/
theorem rowmax_real_of_isReal [Nonempty ι] (f : ι → EReal) (hf : ∀ k, f k = ((f k).toReal : EReal)) :
    ∃ r : ℝ, (Finset.univ : Finset ι).fold max (⊥ : EReal) f = (r : EReal) := by
  have hfun : f = fun k => ((f k).toReal : EReal) := funext hf
  rw [hfun]
  exact rowmax_real fun k => (f k).toReal

/-- (a) From the empty state: the new running maximum is a real number. -/
theorem max_bot_real [Nonempty ι] (s : ι → ℝ) :
    ∃ μ' : ℝ, max (⊥ : EReal) ((Finset.univ : Finset ι).fold max (⊥ : EReal) (fun k => (s k : EReal))) = (μ' : EReal) := by
  obtain ⟨r, hr⟩ := rowmax_real s
  exact ⟨r, by rw [hr, max_bot_left]⟩

/-- (a) From a real state: the new running maximum is a real number. -/
theorem max_coe_real [Nonempty ι] (s : ι → ℝ) (μ : ℝ) :
    ∃ μ' : ℝ, max (μ : EReal) ((Finset.univ : Finset ι).fold max (⊥ : EReal) (fun k => (s k : EReal))) = (μ' : EReal) := by
  obtain ⟨r, hr⟩ := rowmax_real s
  rw [hr]
  rcases le_total (μ : EReal) (r : EReal) with h | h
  · exact ⟨r, max_eq_right h⟩
  · exact ⟨μ, max_eq_left h⟩

/-! ## (b) The first update -/

/-- (b) The denominator after the first chunk, from the empty state. -/
theorem first_l (s : ι → ℝ) (μ' : ℝ) :
    Ideal.exp ((⊥ : EReal) - (μ' : EReal)) * 0 + ∑ k, Ideal.exp ((s k : EReal) - (μ' : EReal))
      = ((Real.exp (-μ') * ∑ k, Real.exp (s k) : ℝ) : EReal) := by
  rw [mul_zero, zero_add, sum_exp_shift]

/-- (b) The numerator after the first chunk, from the empty state. -/
theorem first_acc (s v : ι → ℝ) (μ' : ℝ) :
    Ideal.exp ((⊥ : EReal) - (μ' : EReal)) * 0 + ∑ k, Ideal.exp ((s k : EReal) - (μ' : EReal)) * (v k : EReal)
      = ((Real.exp (-μ') * ∑ k, Real.exp (s k) * v k : ℝ) : EReal) := by
  rw [mul_zero, zero_add, sum_exp_shift_mul]

/-! ## (c) A later update -/

/-- Rescaling a state held at shift μ to the shift μ'. -/
theorem rescale (μ μ' X : ℝ) :
    Ideal.exp ((μ : EReal) - (μ' : EReal)) * ((Real.exp (-μ) * X : ℝ) : EReal) = ((Real.exp (-μ') * X : ℝ) : EReal) := by
  rw [← EReal.coe_sub, Ideal.exp_coe, ← EReal.coe_mul, ← mul_assoc, ← Real.exp_add]
  congr 3; ring

/-- (c) The denominator after a later chunk. -/
theorem next_l (s : ι → ℝ) (μ μ' Z : ℝ) :
    Ideal.exp ((μ : EReal) - (μ' : EReal)) * ((Real.exp (-μ) * Z : ℝ) : EReal)
        + ∑ k, Ideal.exp ((s k : EReal) - (μ' : EReal))
      = ((Real.exp (-μ') * (Z + ∑ k, Real.exp (s k)) : ℝ) : EReal) := by
  rw [rescale, sum_exp_shift, ← EReal.coe_add, mul_add]

/-- (c) The numerator after a later chunk. -/
theorem next_acc (s v : ι → ℝ) (μ μ' W : ℝ) :
    Ideal.exp ((μ : EReal) - (μ' : EReal)) * ((Real.exp (-μ) * W : ℝ) : EReal)
        + ∑ k, Ideal.exp ((s k : EReal) - (μ' : EReal)) * (v k : EReal)
      = ((Real.exp (-μ') * (W + ∑ k, Real.exp (s k) * v k) : ℝ) : EReal) := by
  rw [rescale, sum_exp_shift_mul, ← EReal.coe_add, mul_add]

end chunk

/-! ## (d) The final quotient -/

/-- (d) The common factor exp (-μ) cancels in the quotient of numerator by a positive denominator. -/
theorem div_shift (μ W Z : ℝ) (hZ : 0 < Z) :
    Ideal.div ((Real.exp (-μ) * W : ℝ) : EReal) ((Real.exp (-μ) * Z : ℝ) : EReal) = ((W / Z : ℝ) : EReal) := by
  have hE : Real.exp (-μ) ≠ 0 := (Real.exp_pos _).ne'
  have hne : Real.exp (-μ) * Z ≠ 0 := mul_ne_zero hE hZ.ne'
  rw [Ideal.div_coe hne, ← EReal.coe_mul]
  congr 1
  field_simp

end OnlineSoftmax

end
-- ==== Proof.RowTile.lean ====
/-
  One key/value tile's update of the running state of a query row keeps the invariant of the blocked evaluation,
  and the quotient stored after the last tile is the specification.

  The state of query row `rr` of batch `b` after the prefix and the first `n` tiles is a real maximum `μ`, the
  denominator `exp (-μ) · Zn n` and the numerator `exp (-μ) · Wn n h`.  Tile `n` has the 512 real scores
  `s c = scoreK b rr (tileRow n c)`; the new maximum `max μ (max of the s c)` is again a real number `μ'`, the
  rescaling factor is `exp (μ - μ')` and a shifted exponential is `exp (s c - μ') = exp (-μ') · exp (s c)`, so the
  new denominator is `exp (-μ') · (Zn n + ∑ c, exp (s c)) = exp (-μ') · Zn (n + 1)` and the new numerator at column
  `h` is `exp (-μ') · (Wn n h + ∑ c, exp (s c) · V[b, tileRow n c, h]) = exp (-μ') · Wn (n + 1) h`.  After the eighth
  tile the stored quotient is `(exp (-μ) · Wn 8 h) / (exp (-μ) · Zn 8) = Wn 8 h / Zn 8`, since `Zn 8` is positive.
-/
import proofs.«150562_j42571715837963_2_alg».proof.Proof.KernelPieces
import proofs.«150562_j42571715837963_2_alg».proof.Proof.KernelSteps
import proofs.«150562_j42571715837963_2_alg».proof.Proof.OnlineSoftmax
import proofs.«150562_j42571715837963_2_alg».proof.Proof.RowState

noncomputable section

open scoped BigOperators

namespace Cert.KernelIdeal.RowSteps

open Cert.KernelIdeal Cert.KernelIdeal.Gen Cert.KernelIdeal.Pieces Cert.KernelIdeal.Steps FlashSpec Idealize.ShloMosaic
  Idealize.ShloMosaic.ValueIdx

variable (x0 x1 x2 : SQ.Idx → EReal) (x3 x4 : SP.Idx → EReal)

/-- Folding key/value tile `n` into the running state of a query row that holds the prefix and the first `n` tiles
    gives the state that holds the prefix and the first `n + 1` tiles. -/
theorem tile_good (h0 : IsReal x0) (h1 : IsReal x1) (h2 : IsReal x2) (n : ℕ) (b : Fin 4) (rr : Fin 4096)
    (q : Vec Ideal S1x1024x1024 .f32) (k v : Vec Ideal S1x512x1024 .f32) (r : Fin 1024)
    (hq : ∀ d : Fin 1024, q (ix3 u0 r d) = x0 (ix3 b rr d))
    (hk : ∀ (c : Fin 512) (d : Fin 1024), k (ix3 u0 c d) = x1 (ix3 b (tileRow n c) d))
    (hv : ∀ (c : Fin 512) (h : Fin 1024), v (ix3 u0 c h) = x2 (ix3 b (tileRow n c) h))
    (mS lS : Vec Ideal S1024x1 .f32) (aS : Vec Ideal S1024x1024 .f32)
    (hg : Good x0 x1 x2 x3 x4 n b rr (mS (ix2 r u0)) (lS (ix2 r u0)) (fun h => aS (ix2 r h))) :
    Good x0 x1 x2 x3 x4 (n + 1) b rr (tileMax (F := Ideal) q k mS (ix2 r u0)) (tileDen (F := Ideal) q k mS lS (ix2 r u0))
      (fun h => tileNum (F := Ideal) q k v mS aS (ix2 r h)) := by
  unfold Good at hg ⊢
  obtain ⟨μ, hm, hl, ha⟩ := hg
  haveI : Nonempty (Fin 512) := ⟨⟨0, by norm_num⟩⟩
  -- every score of the tile is a real number
  have hs : ∀ c : Fin 512, k0_pay16 (F := Ideal) q k (ix2 r c) = ((scoreK x0 x1 b rr (tileRow n c) : ℝ) : EReal) :=
    fun c => by
      rw [tileScore_apply]
      unfold scoreK
      rw [← OnlineSoftmax.sum_mul_coe]
      refine Finset.sum_congr rfl fun d _ => ?_
      rw [hq d, hk c d]
      exact congrArg₂ (· * ·) (h0 (ix3 b rr d)) (h1 (ix3 b (tileRow n c) d))
  -- so the new maximum is a real number
  obtain ⟨μ', hμ'⟩ := OnlineSoftmax.max_coe_real (fun c : Fin 512 => scoreK x0 x1 b rr (tileRow n c)) μ
  have h17 : k0_pay17 (F := Ideal) q k mS (ix2 r u0) = (μ' : EReal) := by
    rw [tileMax_apply, hm,
      show (fun c : Fin 512 => k0_pay16 (F := Ideal) q k (ix2 r c))
        = fun c => ((scoreK x0 x1 b rr (tileRow n c) : ℝ) : EReal) from funext hs]
    exact hμ'
  -- and every shifted exponential is that of a real score less a real maximum
  have hP : ∀ c : Fin 512, k0_pay19 (F := Ideal) q k mS (ix2 r c)
      = Ideal.exp (((scoreK x0 x1 b rr (tileRow n c) : ℝ) : EReal) - (μ' : EReal)) := fun c => by
    rw [tileP_apply, hs, h17]
  refine ⟨μ', ?_, ?_, ?_⟩
  · unfold tileMax
    rw [pay2_eq]
    exact h17
  · unfold tileDen
    rw [tileDen_apply, tileAlpha_apply, h17, hm, hl,
      Finset.sum_congr rfl (fun c _ => hP c),
      OnlineSoftmax.next_l (fun c : Fin 512 => scoreK x0 x1 b rr (tileRow n c)) μ μ' (Zn x0 x1 x3 n b rr), Zn_succ]
  · intro h
    show tileNum (F := Ideal) q k v mS aS (ix2 r h) = _
    have hah : aS (ix2 r h) = ((Real.exp (-μ) * Wn x0 x1 x2 x3 x4 n b rr h : ℝ) : EReal) := ha h
    have hPv : ∀ c : Fin 512, k0_pay19 (F := Ideal) q k mS (ix2 r c) * v (ix3 u0 c h)
        = Ideal.exp (((scoreK x0 x1 b rr (tileRow n c) : ℝ) : EReal) - (μ' : EReal))
          * (((x2 (ix3 b (tileRow n c) h)).toReal : ℝ) : EReal) := fun c => by
      rw [hP c, hv c h, ← h2 (ix3 b (tileRow n c) h)]
    unfold tileNum
    rw [tileNum_apply, tileAlpha_apply, h17, hm, hah,
      Finset.sum_congr rfl (fun c _ => hPv c),
      OnlineSoftmax.next_acc (fun c : Fin 512 => scoreK x0 x1 b rr (tileRow n c))
        (fun c : Fin 512 => (x2 (ix3 b (tileRow n c) h)).toReal) μ μ' (Wn x0 x1 x2 x3 x4 n b rr h), Wn_succ]

/-- After the eighth tile the stored quotient of numerator by denominator is the specification. -/
theorem out_good (b : Fin 4) (rr : Fin 4096) (lS : Vec Ideal S1024x1 .f32) (aS : Vec Ideal S1024x1024 .f32) (r h : Fin 1024)
    (mv : EReal) (hg : Good x0 x1 x2 x3 x4 8 b rr mv (lS (ix2 r u0)) (fun h => aS (ix2 r h))) :
    tileOut (F := Ideal) aS lS (ix3 u0 r h) = G x0 x1 x2 x3 x4 (ix3 b rr h) := by
  unfold Good at hg
  obtain ⟨μ, _, hl, ha⟩ := hg
  have hah : aS (ix2 r h) = ((Real.exp (-μ) * Wn x0 x1 x2 x3 x4 8 b rr h : ℝ) : EReal) := ha h
  unfold tileOut
  rw [tileOut_apply, hah, hl]
  exact OnlineSoftmax.div_shift μ _ _ (Zn_pos x0 x1 x3 8 b rr)

end Cert.KernelIdeal.RowSteps

end
-- ==== Proof.RowPrefix.lean ====
/-
  The running state after the ten prefix rows.

  Fix a query row: row r of the query block, which is row rr of batch b of the query array, and write
  s j = ∑ d, Q[b, rr, d] · PK[j, d] for its score against prefix row j, a real number because every entry is real.
  The state the prefix update finds is the reset: maximum -∞, denominator 0, numerator 0. The update sets
      m' = max (-∞) (max over j of s j),
      l' = exp (-∞ - m') · 0 + ∑ j, exp (s j - m'),
      a' h = exp (-∞ - m') · 0 + ∑ j, exp (s j - m') · PV[j, h].
  The ten scores are real and there is at least one, so m' is a real number μ'. Then exp (s j - μ') =
  exp (-μ') · exp (s j), so l' = exp (-μ') · ∑ j, exp (s j) and a' h = exp (-μ') · ∑ j, exp (s j) · PV[j, h]: the
  partial sums of the specification over the prefix and no key tile, scaled by exp (-μ').
-/
import proofs.«150562_j42571715837963_2_alg».proof.Proof.KernelPieces
import proofs.«150562_j42571715837963_2_alg».proof.Proof.KernelSteps
import proofs.«150562_j42571715837963_2_alg».proof.Proof.OnlineSoftmax
import proofs.«150562_j42571715837963_2_alg».proof.Proof.RowState

set_option maxRecDepth 16384

noncomputable section

open scoped BigOperators

namespace Cert.KernelIdeal.RowSteps

open Cert.KernelIdeal Cert.KernelIdeal.Gen Cert.KernelIdeal.Pieces Cert.KernelIdeal.Steps FlashSpec Idealize.ShloMosaic
  Idealize.ShloMosaic.ValueIdx

variable (x0 x1 x2 : SQ.Idx → EReal) (x3 x4 : SP.Idx → EReal)

/-- After the ten prefix rows the running state of a query row is that of the prefix and no key tile. -/
theorem pref_good (h0 : IsReal x0) (h3 : IsReal x3) (h4 : IsReal x4) (b : Fin 4) (rr : Fin 4096)
    (q : Vec Ideal S1x1024x1024 .f32) (pk pv : Vec Ideal S10x1024 .f32) (r : Fin 1024)
    (hq : ∀ d : Fin 1024, q (ix3 u0 r d) = x0 (ix3 b rr d))
    (hpk : ∀ (j : Fin 10) (d : Fin 1024), pk (ix2 j d) = x3 (ix2 j d))
    (hpv : ∀ (j : Fin 10) (h : Fin 1024), pv (ix2 j h) = x4 (ix2 j h)) :
    Good x0 x1 x2 x3 x4 0 b rr (prefMax (F := Ideal) q pk resetMax (ix2 r u0))
      (prefDen (F := Ideal) q pk resetMax resetDen (ix2 r u0))
      (fun h => prefNum (F := Ideal) q pk pv resetMax resetNum (ix2 r h)) := by
  -- each prefix score is the coercion of the specification's real score
  have hs : ∀ j : Fin 10, k0_pay8 (F := Ideal) q pk (ix2 r j) = ((scoreP x0 x3 b rr j : ℝ) : EReal) := fun j =>
    (prefScore_apply q pk r j).trans
      ((Finset.sum_congr rfl fun d _ => congrArg₂ (· * ·) ((hq d).trans (h0 _)) ((hpk j d).trans (h3 _))).trans
        (OnlineSoftmax.sum_mul_coe (fun d => (x0 (ix3 b rr d)).toReal) (fun d => (x3 (ix2 j d)).toReal)))
  -- the reset state
  have hM : (resetMax (F := Ideal)) (ix2 r u0) = (⊥ : EReal) := resetMax_apply _
  have hL : (resetDen (F := Ideal)) (ix2 r u0) = (0 : EReal) := resetDen_apply _
  have hA : ∀ h : Fin 1024, (resetNum (F := Ideal)) (ix2 r h) = (0 : EReal) := fun h => resetNum_apply _
  -- the new maximum is a real number
  obtain ⟨μ', hμ'⟩ := OnlineSoftmax.max_bot_real (fun j : Fin 10 => scoreP x0 x3 b rr j)
  have hm9 : k0_pay9 (F := Ideal) q pk resetMax (ix2 r u0) = (μ' : EReal) := by
    rw [prefMax_apply, hM, funext hs]
    exact hμ'
  unfold Good
  refine ⟨μ', ?_, ?_, ?_⟩
  · unfold prefMax
    rw [pay15_eq]
    exact hm9
  · unfold prefDen
    rw [prefDen_apply, prefScaled_apply, prefAlpha_apply]
    simp only [prefP_apply, hm9, hs, hM, hL]
    rw [OnlineSoftmax.first_l (fun j : Fin 10 => scoreP x0 x3 b rr j) μ']
    unfold Zn
    rw [Finset.range_zero, Finset.sum_empty, add_zero]
  · intro h
    have hv : ∀ j : Fin 10, pv (ix2 j h) = (((x4 (ix2 j h)).toReal : ℝ) : EReal) := fun j => (hpv j h).trans (h4 _)
    show prefNum (F := Ideal) q pk pv resetMax resetNum (ix2 r h) = _
    unfold prefNum
    rw [prefNum_apply, prefAlpha_apply]
    simp only [prefP_apply, hm9, hs, hM, hA, hv]
    rw [OnlineSoftmax.first_acc (fun j : Fin 10 => scoreP x0 x3 b rr j) (fun j : Fin 10 => (x4 (ix2 j h)).toReal) μ']
    unfold Wn
    rw [Finset.range_zero, Finset.sum_empty, add_zero]

end Cert.KernelIdeal.RowSteps

end
-- ==== Proof.Finite.lean ====
/-
  From the precondition to real entries.

  The precondition says, of each of the five argument arrays x, that |x| < +∞ holds at every entry (the
  conjunction over all entries, taken as a reduction by "and" from 1, and the five conjunctions joined by "and").
  On the extended reals |x| is max x (-x), which is +∞ at both -∞ and +∞ and a real number at a real number. So
  |x| < +∞ excludes exactly the two infinities, and an extended real that is neither infinity is the coercion of
  its real part: every entry of every argument array is a real number.
-/
import proofs.«150562_j42571715837963_2_alg».proof.Defs
import proofs.«150562_j42571715837963_2_alg».proof.Proof.Gen.Pre_finite_inputs
import proofs.«150562_j42571715837963_2_alg».proof.Proof.Spec
import Idealize.ShloMosaic.Lib.ReduceAll
import Idealize.ShloMosaic.Lib.ValueIdx

set_option maxRecDepth 16384

noncomputable section

namespace FlashFinite

open Idealize.ShloMosaic Idealize.ShloMosaic.ValueIdx Idealize.SL.Sem

/-- The scalar shape has one index. -/
instance : Subsingleton Cert.Pre_finite_inputs.S_.Idx := ⟨fun a b => funext fun d => d.elim0⟩

/-- An extended real whose absolute value max x (-x) is below +∞ is a real number: at -∞ and at +∞ the absolute
    value is +∞, which is not below +∞. -/
theorem eq_coe_toReal_of_abs_lt (x : EReal)
    (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => rw [EReal.toReal_coe]

section
variable {s : Shape} {axes : List (Fin s.rank)}

/-- One array: if the conjunction over all entries of |x| < +∞ is 1, every entry of x is a real number. -/
theorem isReal_of_all (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
            (cmpf .olt (Host.absf x) (broadcastInDim s ![] hb (constant Cert.Pre_finite_inputs.S_ .f32 0x7F800000#32)))
            (constantI Cert.Pre_finite_inputs.S_ 1 1#1) hr h0 ix0 = 1#1) :
    ∀ i, x i = (((x i).toReal : ℝ) : EReal) := by
  intro i
  have hi := Host.reduce_andi_all _ _ hr h0 ix0 e i
  exact eq_coe_toReal_of_abs_lt (x i) hi

end

variable [Cert.KernelIdeal.Facts] [Cert.Pre_finite_inputs.Facts]

/-- Under the precondition every entry of each of the five argument arrays is a real number. -/
theorem isReal_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    FlashSpec.IsReal (s := FlashSpec.SQ)
        (m ((c.tc : Thread Cert.KernelIdeal.nD Cert.KernelIdeal.τ).loc Cert.KernelIdeal.main_arg0))
      ∧ FlashSpec.IsReal (s := FlashSpec.SQ)
        (m ((c.tc : Thread Cert.KernelIdeal.nD Cert.KernelIdeal.τ).loc Cert.KernelIdeal.main_arg1))
      ∧ FlashSpec.IsReal (s := FlashSpec.SQ)
        (m ((c.tc : Thread Cert.KernelIdeal.nD Cert.KernelIdeal.τ).loc Cert.KernelIdeal.main_arg2))
      ∧ FlashSpec.IsReal (s := FlashSpec.SP)
        (m ((c.tc : Thread Cert.KernelIdeal.nD Cert.KernelIdeal.τ).loc Cert.KernelIdeal.main_arg3))
      ∧ FlashSpec.IsReal (s := FlashSpec.SP)
        (m ((c.tc : Thread Cert.KernelIdeal.nD Cert.KernelIdeal.τ).loc Cert.KernelIdeal.main_arg4)) := by
  have e := congrFun (hpre c) ix0
  dsimp only [Cert.Pre_finite_inputs.fn, Cert.Pre_finite_inputs.fn_part1] at e
  simp only [andi, IntOp.andi_eq_one] at e
  obtain ⟨⟨⟨⟨e0, e1⟩, e2⟩, e3⟩, e4⟩ := e
  exact ⟨isReal_of_all _ _ _ _ e0, isReal_of_all _ _ _ _ e1, isReal_of_all _ _ _ _ e2, isReal_of_all _ _ _ _ e3,
    isReal_of_all _ _ _ _ e4⟩

end FlashFinite

end
-- ==== Proof.KernelRun.lean ====
/-
  The blocked attention kernel's result array, read off its run.

  The grid is (batch b, query tile qi, key/value tile kv), point `t = 32·b + 8·qi + kv`.  The eight points of one
  query tile run in order of kv and carry, row by row, a running maximum, a running denominator and a running
  numerator.  First the three cases of a point (first, middle, last key/value tile) are stated as updates of that
  carried state by the point's blocks.  Then, by induction on the point: after point `t` the state of every row of
  the query tile is that of the prefix rows and the key/value tiles `0 … kv` — a real maximum `μ`, the denominator
  `exp (-μ) · Z`, the numerator `exp (-μ) · W` of the partial sums.  At kv = 7 the stored quotient is `W / Z` over
  all rows: the specification.  The output block of a query tile is written back only at kv = 7, and those blocks
  cover the result array.
-/
import proofs.«150562_j42571715837963_2_alg».proof.Proof.Gen.KernelIdeal.Value
import proofs.«150562_j42571715837963_2_alg».proof.Proof.KernelPieces
import proofs.«150562_j42571715837963_2_alg».proof.Proof.KernelSteps
import proofs.«150562_j42571715837963_2_alg».proof.Proof.Blocks
import proofs.«150562_j42571715837963_2_alg».proof.Proof.RowState
import proofs.«150562_j42571715837963_2_alg».proof.Proof.RowTile
import proofs.«150562_j42571715837963_2_alg».proof.Proof.RowPrefix
import proofs.«150562_j42571715837963_2_alg».proof.Proof.Finite

set_option maxRecDepth 16384

noncomputable section
open Idealize.ShloMosaic Idealize.ShloMosaic.TcCoe Idealize.SL.Sem Idealize.ShloMosaic.ValueIdx
open Cert.KernelIdeal.Steps (u0)

namespace Cert.KernelIdeal.Run
open Cert.KernelIdeal Cert.KernelIdeal.Gen Cert.KernelIdeal.Pieces Cert.KernelIdeal.Blocks FlashSpec

/-! ## What each point leaves, in terms of the point's blocks and of what the point before left -/

section
variable {F : FTy → Type} [FloatOps F]
variable (m : (ℓ : Loc nD τ sig) → Buf (Elt F) ℓ)

/-- The five input blocks of point `t`: the query block, the key and value tiles, the two prefix arrays. -/
abbrev bQ (c : Dev nD) (t : Fin cfg0.N) : Vec F S1x1024x1024 .f32 := iblk m c 0 t
abbrev bK (c : Dev nD) (t : Fin cfg0.N) : Vec F S1x512x1024 .f32 := iblk m c 1 t
abbrev bV (c : Dev nD) (t : Fin cfg0.N) : Vec F S1x512x1024 .f32 := iblk m c 2 t
abbrev bPK (c : Dev nD) (t : Fin cfg0.N) : Vec F S10x1024 .f32 := iblk m c 3 t
abbrev bPV (c : Dev nD) (t : Fin cfg0.N) : Vec F S10x1024 .f32 := iblk m c 4 t

/-- A first point of a query tile: reset, the prefix rows, then tile 0. -/
theorem vals_A (c : Dev nD) (t : Fin cfg0.N) (h0 : t.val % 8 = 0) (h1 : ¬t.val % 8 = 7) :
    (outsAt0 m c t.val t.isLt).2.1 = tileMax (F := F) (bQ m c t) (bK m c t) (prefMax (F := F) (bQ m c t) (bPK m c t) (resetMax (F := F)))
    ∧ (outsAt0 m c t.val t.isLt).2.2.1 = tileDen (F := F) (bQ m c t) (bK m c t) (prefMax (F := F) (bQ m c t) (bPK m c t) (resetMax (F := F))) (prefDen (F := F) (bQ m c t) (bPK m c t) (resetMax (F := F)) (resetDen (F := F)))
    ∧ (outsAt0 m c t.val t.isLt).2.2.2 = tileNum (F := F) (bQ m c t) (bK m c t) (bV m c t) (prefMax (F := F) (bQ m c t) (bPK m c t) (resetMax (F := F))) (prefNum (F := F) (bQ m c t) (bPK m c t) (bPV m c t) (resetMax (F := F)) (resetNum (F := F))) := by
  refine ⟨?_, ?_, ?_⟩
  · rw [outsAt0_A m c t h0 h1]; dsimp only
    exact sA_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (bQ m c t) (bK m c t) (bV m c t) (bPK m c t) (bPV m c t)
  · rw [outsAt0_A m c t h0 h1]; dsimp only
    exact sA_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (bQ m c t) (bK m c t) (bV m c t) (bPK m c t) (bPV m c t)
  · rw [outsAt0_A m c t h0 h1]; dsimp only
    exact sA_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (bQ m c t) (bK m c t) (bV m c t) (bPK m c t) (bPV m c t)

/-- A middle point: the point's tile folded into what the point before left. -/
theorem vals_B (c : Dev nD) (t : Fin cfg0.N) (h0 : ¬t.val % 8 = 0) (h1 : ¬t.val % 8 = 7) :
    (outsAt0 m c t.val t.isLt).2.1 = tileMax (F := F) (bQ m c t) (bK m c t) (outsAt0 m c (t.val - 1) (Nat.lt_of_le_of_lt (Nat.sub_le _ _) t.isLt)).2.1
    ∧ (outsAt0 m c t.val t.isLt).2.2.1 = tileDen (F := F) (bQ m c t) (bK m c t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = tileNum (F := F) (bQ m c t) (bK m c t) (bV m c t) (outsAt0 m c (t.val - 1) (Nat.lt_of_le_of_lt (Nat.sub_le _ _) t.isLt)).2.1 (outsAt0 m c (t.val - 1) (Nat.lt_of_le_of_lt (Nat.sub_le _ _) t.isLt)).2.2.2 := by
  refine ⟨?_, ?_, ?_⟩
  · rw [outsAt0_B m c t h0 h1]; dsimp only
    exact sB_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sB_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sB_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A last point: the last tile folded in, and the quotient of the new numerator by the new denominator stored. -/
theorem vals_C (c : Dev nD) (t : Fin cfg0.N) (h0 : ¬t.val % 8 = 0) (h1 : t.val % 8 = 7) :
    (outsAt0 m c t.val t.isLt).2.1 = tileMax (F := F) (bQ m c t) (bK m c t) (outsAt0 m c (t.val - 1) (Nat.lt_of_le_of_lt (Nat.sub_le _ _) t.isLt)).2.1
    ∧ (outsAt0 m c t.val t.isLt).2.2.1 = tileDen (F := F) (bQ m c t) (bK m c t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = tileNum (F := F) (bQ m c t) (bK m c t) (bV m c t) (outsAt0 m c (t.val - 1) (Nat.lt_of_le_of_lt (Nat.sub_le _ _) t.isLt)).2.1 (outsAt0 m c (t.val - 1) (Nat.lt_of_le_of_lt (Nat.sub_le _ _) t.isLt)).2.2.2
    ∧ (outsAt0 m c t.val t.isLt).1 = tileOut (F := F) (tileNum (F := F) (bQ m c t) (bK m c t) (bV m c t) (outsAt0 m c (t.val - 1) (Nat.lt_of_le_of_lt (Nat.sub_le _ _) t.isLt)).2.1 (outsAt0 m c (t.val - 1) (Nat.lt_of_le_of_lt (Nat.sub_le _ _) t.isLt)).2.2.2)
        (tileDen (F := F) (bQ m c t) (bK m c t) (outsAt0 m c (t.val - 1) (Nat.lt_of_le_of_lt (Nat.sub_le _ _) t.isLt)).2.1 (outsAt0 m c (t.val - 1) (Nat.lt_of_le_of_lt (Nat.sub_le _ _) t.isLt)).2.2.1) := by
  refine ⟨?_, ?_, ?_, ?_⟩
  · rw [outsAt0_C m c t h0 h1]; dsimp only
    exact sC_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]; dsimp only
    exact sC_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]; dsimp only
    exact sC_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1]; dsimp only
    exact oC_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (bQ m c t) (bK m c t) (bV m c t) (bPK m c t) (bPV m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
end

/-! ## The invariant along the grid, and the result array -/

section
variable (m : (ℓ : Loc nD τ sig) → Buf (Elt Ideal) ℓ)

/-- The five argument arrays on device `c`. -/
abbrev A0 (c : Dev nD) : SQ.Idx → EReal := m ((c : Thread nD τ).loc main_arg0)
abbrev A1 (c : Dev nD) : SQ.Idx → EReal := m ((c : Thread nD τ).loc main_arg1)
abbrev A2 (c : Dev nD) : SQ.Idx → EReal := m ((c : Thread nD τ).loc main_arg2)
abbrev A3 (c : Dev nD) : SP.Idx → EReal := m ((c : Thread nD τ).loc main_arg3)
abbrev A4 (c : Dev nD) : SP.Idx → EReal := m ((c : Thread nD τ).loc main_arg4)

/-- Row `k` of the key/value tile of point `t` is row `k` of tile `t mod 8`. -/
theorem kRow_eq (t : Fin cfg0.N) (k : Fin 512) : kRow t k = tileRow (t.val % 8) k := by
  apply Fin.ext
  have := k.isLt
  show 512 * (t.val % 8) + k.val = (512 * (t.val % 8) + k.val) % 4096
  omega

/-- After the point `t = 32·b + 8·qi + kv`, every row of its query tile carries the running state of the prefix
    and the tiles `0 … kv`: by induction on the point, the point before a non-first point being the previous tile of
    the same query tile. -/
theorem good_at (c : Dev nD) (h0 : IsReal (A0 m c)) (h1 : IsReal (A1 m c)) (h2 : IsReal (A2 m c)) (h3 : IsReal (A3 m c)) (h4 : IsReal (A4 m c)) :
    ∀ (n : ℕ) (t : Fin cfg0.N), t.val = n → ∀ r : Fin 1024,
      Good (A0 m c) (A1 m c) (A2 m c) (A3 m c) (A4 m c) (t.val % 8 + 1) (bOf t) (qRow t r)
        ((outsAt0 m c t.val t.isLt).2.1 (ix2 r u0)) ((outsAt0 m c t.val t.isLt).2.2.1 (ix2 r u0)) (fun h => (outsAt0 m c t.val t.isLt).2.2.2 (ix2 r h)) := by
  intro n
  induction n using Nat.strong_induction_on with
  | _ n ih =>
    intro t htn r
    have hN : t.val < 128 := lt_128 t
    have hq : ∀ d : Fin 1024, (bQ m c t) (ix3 u0 r d) = A0 m c (ix3 (bOf t) (qRow t r) d) :=
      fun d => iblk0 m c t r d
    have hk : ∀ (k : Fin 512) (d : Fin 1024), (bK m c t) (ix3 u0 k d)
        = A1 m c (ix3 (bOf t) (tileRow (t.val % 8) k) d) :=
      fun k d => (iblk1 m c t k d).trans (by rw [kRow_eq])
    have hv : ∀ (k : Fin 512) (h : Fin 1024), (bV m c t) (ix3 u0 k h)
        = A2 m c (ix3 (bOf t) (tileRow (t.val % 8) k) h) :=
      fun k h => (iblk2 m c t k h).trans (by rw [kRow_eq])
    by_cases e0 : t.val % 8 = 0
    · have e1 : ¬t.val % 8 = 7 := by omega
      obtain ⟨v0, v1, v2⟩ := vals_A m c t e0 e1
      rw [v0, v1, v2]
      refine RowSteps.tile_good (A0 m c) (A1 m c) (A2 m c) (A3 m c) (A4 m c) h0 h1 h2 (t.val % 8) (bOf t) (qRow t r) (bQ m c t) (bK m c t) (bV m c t) r hq hk hv _ _ _ ?_
      rw [e0]
      exact RowSteps.pref_good (A0 m c) (A1 m c) (A2 m c) (A3 m c) (A4 m c) h0 h3 h4 (bOf t) (qRow t r) (bQ m c t) (bPK m c t) (bPV m c t) r hq
        (fun j d => iblk3 m c t j d) (fun j h => iblk4 m c t j h)
    · have hlt : t.val - 1 < cfg0.N := Nat.lt_of_le_of_lt (Nat.sub_le _ _) t.isLt
      have ihp := ih (t.val - 1) (by omega) ⟨t.val - 1, hlt⟩ rfl r
      dsimp only at ihp
      have eb : bOf ⟨t.val - 1, hlt⟩ = bOf t := Fin.ext (by show (t.val - 1) / 32 = t.val / 32; omega)
      have eqr : qRow ⟨t.val - 1, hlt⟩ r = qRow t r :=
        Fin.ext (by show 1024 * (((t.val - 1) / 8) % 4) + r.val = 1024 * ((t.val / 8) % 4) + r.val; omega)
      have ek : (t.val - 1) % 8 + 1 = t.val % 8 := by omega
      rw [eb, eqr, ek] at ihp
      by_cases e1 : t.val % 8 = 7
      · obtain ⟨v0, v1, v2, _⟩ := vals_C m c t e0 e1
        rw [v0, v1, v2]
        exact RowSteps.tile_good (A0 m c) (A1 m c) (A2 m c) (A3 m c) (A4 m c) h0 h1 h2 (t.val % 8) (bOf t) (qRow t r) (bQ m c t) (bK m c t) (bV m c t) r hq hk hv _ _ _ ihp
      · obtain ⟨v0, v1, v2⟩ := vals_B m c t e0 e1
        rw [v0, v1, v2]
        exact RowSteps.tile_good (A0 m c) (A1 m c) (A2 m c) (A3 m c) (A4 m c) h0 h1 h2 (t.val % 8) (bOf t) (qRow t r) (bQ m c t) (bK m c t) (bV m c t) r hq hk hv _ _ _ ihp

/-- At a last-tile point the stored block holds the specification at the rows of the point's query tile. -/
theorem out_eq (c : Dev nD) (h0 : IsReal (A0 m c)) (h1 : IsReal (A1 m c)) (h2 : IsReal (A2 m c)) (h3 : IsReal (A3 m c)) (h4 : IsReal (A4 m c)) (t : Fin cfg0.N) (ht : t.val % 8 = 7) (r h : Fin 1024) :
    (outsAt0 m c t.val t.isLt).1 (ix3 (0 : Fin 1) r h) = G (A0 m c) (A1 m c) (A2 m c) (A3 m c) (A4 m c) (ix3 (bOf t) (qRow t r) h) := by
  have e0 : ¬t.val % 8 = 0 := by omega
  obtain ⟨_, v1, v2, v3⟩ := vals_C m c t e0 ht
  have hg := good_at m c h0 h1 h2 h3 h4 t.val t rfl r
  rw [show t.val % 8 + 1 = 8 from by omega] at hg
  rw [v3, ← v2, ← v1]
  exact RowSteps.out_good (A0 m c) (A1 m c) (A2 m c) (A3 m c) (A4 m c) (bOf t) (qRow t r) _ _ r h _ hg

/-- So the result array ends holding the specification. -/
theorem final (c : Dev nD) (h0 : IsReal (A0 m c)) (h1 : IsReal (A1 m c)) (h2 : IsReal (A2 m c)) (h3 : IsReal (A3 m c)) (h4 : IsReal (A4 m c)) : (dats m 0 c).arrAt 5 cfg0.N = G (A0 m c) (A1 m c) (A2 m c) (A3 m c) (A4 m c) :=
  arrAt5_eq m c (G (A0 m c) (A1 m c) (A2 m c) (A3 m c) (A4 m c)) (fun t ht r h => out_eq m c h0 h1 h2 h3 h4 t ht r h)

/-- The kernel's run under the precondition: the result array at the specification of the argument arrays, the
    arguments unchanged. -/
theorem run (ρ : Dev nD → PrngReg) (hpre : Cert.Pre_KernelIdeal m) :
    θ_run defs (onTc (τ := τ) (main (F := Ideal))) ⟨m, fun _ => 0, ρ⟩ fun r => ∀ c : Dev nD,
      r.2.mem ((c : Thread nD τ).loc main_v0) = G (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      obtain ⟨r0, r1, r2, r3, r4⟩ := FlashFinite.isReal_of_pre m hpre c
      exact ⟨(h c).1.trans (final m c r0 r1 r2 r3 r4), (h c).2⟩)
    (Cert.KernelIdeal.Value.run_blocks m ρ)
end

end Cert.KernelIdeal.Run
end
-- ==== Proof.RefValue.lean ====
/-
  The reference side: the plain attention program's result, read at an index, is the specification `FlashSpec.G`.

  For batch `b`, query row `r` and output column `h` the reference joins the ten prefix rows and the 4096 rows of
  the batch into arrays of 4106 key rows and 4106 value rows, takes the score `s k` of the query row against each
  joined key row, the maximum `M` of the scores (started from the bottom element), the weights
  `exp (s k - M) / ∑ k', exp (s k' - M)`, and the weighted sum of the joined value rows.
  With every argument entry a real number each score is a real number, so `M` is a real number — which real number
  never matters: `exp (s - M) = exp s · exp (-M)`, and the common factor cancels between the weight's numerator and
  denominator. What is left is `(∑ k, exp (s k) · v k) / ∑ k, exp (s k)` over the 4106 joined rows, and the 4106 rows
  are the ten prefix rows followed by eight tiles of 512 key rows, which is how the specification sums them.
-/
import proofs.«150562_j42571715837963_2_alg».proof.Proof.Gen.ReferenceIdeal.Read
import proofs.«150562_j42571715837963_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Real analysis: sums, the running maximum, the shift of a softmax -/

/-- The coercion of the reals into the extended reals commutes with a finite sum. -/
theorem ereal_coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The running maximum, started at the bottom element, of finitely many real numbers over a nonempty index set
    is a real number. -/
theorem fold_max_real {ι : Type} (σ : ι → ℝ) (s : Finset ι) (hs : s.Nonempty) :
    ∃ μ : ℝ, s.fold max (⊥ : EReal) (fun j => (σ j : EReal)) = (μ : EReal) := by
  classical
  induction hs using Finset.Nonempty.cons_induction with
  | singleton a =>
    exact ⟨σ a, by rw [Finset.fold_singleton]; exact max_eq_left bot_le⟩
  | cons a s ha hs ih =>
    obtain ⟨μ, hμ⟩ := ih
    refine ⟨max (σ a) μ, ?_⟩
    rw [Finset.fold_cons, hμ]; exact (EReal.coe_strictMono.monotone.map_max).symm

/-- Softmax weights taken after subtracting any real number from every score, then averaged against real values:
    the shift cancels, leaving the ratio of the exponential-weighted sum to the sum of exponentials. -/
theorem softmax_shift {ι : Type} [Fintype ι] [Nonempty ι] (σ v : ι → ℝ) (μ : ℝ) :
    ∑ j : ι, Ideal.div (Ideal.exp ((σ j : EReal) - (μ : EReal)))
        (0 + ∑ k : ι, Ideal.exp ((σ k : EReal) - (μ : EReal))) * (v j : EReal)
      = (((∑ j : ι, Real.exp (σ j) * v j) / (∑ j : ι, Real.exp (σ j)) : ℝ) : EReal) := by
  have hexp : ∀ k, Ideal.exp ((σ k : EReal) - (μ : EReal)) = ((Real.exp (σ k - μ) : ℝ) : EReal) := fun k => by
    rw [← EReal.coe_sub, Ideal.exp_coe]
  have hL : (0 : EReal) + ∑ k : ι, Ideal.exp ((σ k : EReal) - (μ : EReal))
      = ((∑ k : ι, Real.exp (σ k - μ) : ℝ) : EReal) := by
    rw [ereal_coe_sum Finset.univ (fun k => Real.exp (σ k - μ)), zero_add]; exact Finset.sum_congr rfl fun k _ => hexp k
  have hLpos : 0 < ∑ k : ι, Real.exp (σ k - μ) :=
    Finset.sum_pos (fun k _ => Real.exp_pos _) Finset.univ_nonempty
  have hZpos : 0 < ∑ k : ι, Real.exp (σ k) :=
    Finset.sum_pos (fun k _ => Real.exp_pos _) Finset.univ_nonempty
  rw [hL, Finset.sum_div, ereal_coe_sum Finset.univ (fun j => Real.exp (σ j) * v j / ∑ j : ι, Real.exp (σ j))]
  refine Finset.sum_congr rfl fun j _ => ?_
  rw [hexp, Ideal.div_coe hLpos.ne', ← EReal.coe_mul, ← EReal.coe_mul]
  refine congrArg (fun t : ℝ => (t : EReal)) ?_
  have hsplit : ∀ k, Real.exp (σ k - μ) = Real.exp (σ k) * Real.exp (-μ) := fun k => by
    rw [sub_eq_add_neg, Real.exp_add]
  simp only [hsplit]
  rw [← Finset.sum_mul]
  have he : Real.exp (-μ) ≠ 0 := (Real.exp_pos _).ne'
  field_simp

section
variable (x0 x1 x2 : (⟨S4x4096x1024, .f32⟩ : BufTy).Contents (Elt Ideal)) (x3 x4 : (⟨S10x1024, .f32⟩ : BufTy).Contents (Elt Ideal))

/-! ## The two joined arrays read at an index -/

/-- The joined key array reads the prefix on rows below ten. -/
theorem v4_lo (b : Fin 4) (j : Fin 4106) (d : Fin 1024) (hj : j.val < 10) :
    val_main_v4 (F := Ideal) x1 x3 (ix3 b j d) = x3 (ix2 (⟨j.val, hj⟩ : Fin 10) d) := by
  unfold val_main_v4
  rw [concatenate_pair_apply_left (t := S4x4106x1024) (s₁ := S4x10x1024) (s₂ := S4x4096x1024) (1 : Fin 3) _ _ _
    (ix3 b j d) rfl (ix3 b (⟨j.val, hj⟩ : Fin 10) d)
    (fun a => by match a with | ⟨0, _⟩ => rfl | ⟨1, _⟩ => rfl | ⟨2, _⟩ => rfl)]
  rw [val_main_v1_apply, val_main_v0_apply]
  exact congrArg x3 (funext fun a => by match a with | ⟨0, _⟩ => rfl | ⟨1, _⟩ => rfl)

/-- The joined key array reads the keys, ten rows down, from row ten on. -/
theorem v4_hi (b : Fin 4) (j : Fin 4106) (d : Fin 1024) (hj : 10 ≤ j.val) :
    val_main_v4 (F := Ideal) x1 x3 (ix3 b j d)
      = x1 (ix3 b (⟨j.val - 10, by have := j.isLt; omega⟩ : Fin 4096) d) := by
  unfold val_main_v4
  exact concatenate_pair_apply_right (t := S4x4106x1024) (s₁ := S4x10x1024) (s₂ := S4x4096x1024) (1 : Fin 3) _ _ _
    (ix3 b j d) rfl rfl (ix3 b (⟨j.val - 10, by have := j.isLt; omega⟩ : Fin 4096) d)
    (fun a ha => by match a with | ⟨0, _⟩ => rfl | ⟨1, _⟩ => exact absurd rfl ha | ⟨2, _⟩ => rfl)
    (by show j.val - 10 + 10 = j.val; omega)

/-- The joined value array reads the prefix on rows below ten. -/
theorem v5_lo (b : Fin 4) (j : Fin 4106) (d : Fin 1024) (hj : j.val < 10) :
    val_main_v5 (F := Ideal) x2 x4 (ix3 b j d) = x4 (ix2 (⟨j.val, hj⟩ : Fin 10) d) := by
  unfold val_main_v5
  rw [concatenate_pair_apply_left (t := S4x4106x1024) (s₁ := S4x10x1024) (s₂ := S4x4096x1024) (1 : Fin 3) _ _ _
    (ix3 b j d) rfl (ix3 b (⟨j.val, hj⟩ : Fin 10) d)
    (fun a => by match a with | ⟨0, _⟩ => rfl | ⟨1, _⟩ => rfl | ⟨2, _⟩ => rfl)]
  rw [val_main_v3_apply, val_main_v2_apply]
  exact congrArg x4 (funext fun a => by match a with | ⟨0, _⟩ => rfl | ⟨1, _⟩ => rfl)

/-- The joined value array reads the values, ten rows down, from row ten on. -/
theorem v5_hi (b : Fin 4) (j : Fin 4106) (d : Fin 1024) (hj : 10 ≤ j.val) :
    val_main_v5 (F := Ideal) x2 x4 (ix3 b j d)
      = x2 (ix3 b (⟨j.val - 10, by have := j.isLt; omega⟩ : Fin 4096) d) := by
  unfold val_main_v5
  exact concatenate_pair_apply_right (t := S4x4106x1024) (s₁ := S4x10x1024) (s₂ := S4x4096x1024) (1 : Fin 3) _ _ _
    (ix3 b j d) rfl rfl (ix3 b (⟨j.val - 10, by have := j.isLt; omega⟩ : Fin 4096) d)
    (fun a ha => by match a with | ⟨0, _⟩ => rfl | ⟨1, _⟩ => exact absurd rfl ha | ⟨2, _⟩ => rfl)
    (by show j.val - 10 + 10 = j.val; omega)

/-! ## The reference's operations at explicit coordinates -/

/-- The shape fact that names the index inserted on the reduced axis. -/
theorem redS : S4x4096x4106.Reduces [2] S4x4096 := by decide

/-- The initial value of the maximum is the bottom element. -/
theorem ninf_eq_bot : Ideal.ofBits .f32 0xFF800000#32 = (⊥ : EReal) := by simp [Ideal.ofBits, Ideal.ieee]

/-- The score array at (b, r, k): the sum over the feature axis of the products. -/
theorem v6_at (b : Fin 4) (r : Fin 4096) (k : Fin 4106) :
    val_main_v6 (F := Ideal) x0 x1 x3 (ix3 b r k)
      = ∑ d : Fin 1024, x0 (ix3 b r d) * val_main_v4 (F := Ideal) x1 x3 (ix3 b k d) := by
  rw [val_main_v6_apply]
  refine Finset.sum_congr rfl fun d _ => ?_
  congr 2
  · funext a; match a with | ⟨0, _⟩ => rfl | ⟨1, _⟩ => rfl | ⟨2, _⟩ => rfl
  · funext a; match a with | ⟨0, _⟩ => rfl | ⟨1, _⟩ => rfl | ⟨2, _⟩ => rfl

/-- The row maximum at (b, r): the running maximum from the bottom element over the 4106 scores of the row. -/
theorem v7_at (b : Fin 4) (r : Fin 4096) :
    val_main_v7 (F := Ideal) x0 x1 x3 (ix2 b r)
      = (Finset.univ : Finset (Fin 4106)).fold max (⊥ : EReal)
          (fun k => val_main_v6 (F := Ideal) x0 x1 x3 (ix3 b r k)) := by
  unfold val_main_v7
  refine (Host.reduce_eq_fold_single (FloatOps.maximumf (F := Ideal) (φ := .f32)) (val_main_v6 (F := Ideal) x0 x1 x3) (val_main_cst (F := Ideal))
    reducesTo_S4x4096x4106_S4x4096_d2 redS h_S_ (ix2 b r)).trans ?_
  rw [val_main_cst_apply, Ideal.ofBits_def, ninf_eq_bot]
  show (Finset.univ : Finset (Fin 4106)).fold max (⊥ : EReal) _ = _
  congr 1
  funext k
  show val_main_v6 (F := Ideal) x0 x1 x3 (redS.lift (ix2 b r) k) = _
  congr 1
  funext a; apply Fin.ext; match a with | ⟨0, _⟩ => rfl | ⟨1, _⟩ => rfl | ⟨2, _⟩ => rfl

/-- The maximum broadcast along the row. -/
theorem v11_at (b : Fin 4) (r : Fin 4096) (k : Fin 4106) :
    val_main_v11 (F := Ideal) x0 x1 x3 (ix3 b r k)
      = max (⊥ : EReal) (val_main_v7 (F := Ideal) x0 x1 x3 (ix2 b r)) := by
  rw [val_main_v11_apply, val_main_v10_apply, val_main_v9_apply, val_main_v8_apply, val_main_cst_0_apply,
    Ideal.ofBits_def, ninf_eq_bot, Ideal.maximumf_def]
  congr 2
  funext a; match a with | ⟨0, _⟩ => rfl | ⟨1, _⟩ => rfl

/-- The exponential of the shifted score. -/
theorem v13_at (b : Fin 4) (r : Fin 4096) (k : Fin 4106) :
    val_main_v13 (F := Ideal) x0 x1 x3 (ix3 b r k)
      = Ideal.exp (val_main_v6 (F := Ideal) x0 x1 x3 (ix3 b r k)
          - max (⊥ : EReal) (val_main_v7 (F := Ideal) x0 x1 x3 (ix2 b r))) := by
  rw [val_main_v13_apply, val_main_v12_apply, Ideal.hostUnary_exp_def, Ideal.subf_def, v11_at]

/-- The row's sum of exponentials, broadcast along the row. -/
theorem v16_at (b : Fin 4) (r : Fin 4096) (k : Fin 4106) :
    val_main_v16 (F := Ideal) x0 x1 x3 (ix3 b r k)
      = 0 + ∑ k' : Fin 4106, val_main_v13 (F := Ideal) x0 x1 x3 (ix3 b r k') := by
  rw [val_main_v16_apply, val_main_v15_apply, val_main_v14_apply, val_main_cst_1_apply, Ideal.ofBits_def,
    Ideal.ofBits_zero_f32]
  congr 1
  refine Finset.sum_congr rfl fun k' _ => ?_
  congr 1
  funext a; match a with | ⟨0, _⟩ => rfl | ⟨1, _⟩ => rfl | ⟨2, _⟩ => rfl

/-- The result at (b, r, h): the sum over the 4106 rows of weight times value. -/
theorem v18_at (b : Fin 4) (r : Fin 4096) (h : Fin 1024) :
    val_main_v18 (F := Ideal) x0 x1 x2 x3 x4 (ix3 b r h)
      = ∑ k : Fin 4106, Ideal.div (val_main_v13 (F := Ideal) x0 x1 x3 (ix3 b r k))
            (0 + ∑ k' : Fin 4106, val_main_v13 (F := Ideal) x0 x1 x3 (ix3 b r k'))
          * val_main_v5 (F := Ideal) x2 x4 (ix3 b k h) := by
  rw [val_main_v18_apply]
  refine Finset.sum_congr rfl fun k _ => ?_
  have e1 : lidx_main_v18 (ix3 b r h) k = ix3 b r k := by
    funext a; match a with | ⟨0, _⟩ => rfl | ⟨1, _⟩ => rfl | ⟨2, _⟩ => rfl
  have e2 : ridx_main_v18 (ix3 b r h) k = ix3 b k h := by
    funext a; match a with | ⟨0, _⟩ => rfl | ⟨1, _⟩ => rfl | ⟨2, _⟩ => rfl
  rw [e1, e2, val_main_v17_apply, Ideal.hostDivf_def, v16_at]

/-! ## The scores and values of the joined arrays as real numbers -/

/-- The key/value row that row `k ≥ 10` of a joined array comes from (taken mod 4096, so that it is a row for every
    natural `k`; for `10 ≤ k < 4106` nothing is reduced). -/
def rowK (k : ℕ) : Fin 4096 := ⟨(k - 10) % 4096, Nat.mod_lt _ (by norm_num)⟩

/-- On the rows `10 ≤ k < 4106` of a joined array the source row is `k - 10`. -/
theorem rowK_of_lt (k : Fin 4106) (hk : 10 ≤ k.val) :
    rowK k.val = (⟨k.val - 10, by have := k.isLt; omega⟩ : Fin 4096) :=
  Fin.ext (Nat.mod_eq_of_lt (by have := k.isLt; omega))

/-- Row `10 + (512·t + c)` of a joined array comes from offset `c` of tile `t`. -/
theorem rowK_tile (t : ℕ) (c : Fin 512) : rowK (10 + (512 * t + c.val)) = FlashSpec.tileRow t c := by
  apply Fin.ext
  show (10 + (512 * t + c.val) - 10) % 4096 = (512 * t + c.val) % 4096
  rw [Nat.add_sub_cancel_left]

/-- The score of query row `(b, r)` against row `k` of the joined key array. -/
def sc (b : Fin 4) (r : Fin 4096) (k : ℕ) : ℝ :=
  if hk : k < 10 then FlashSpec.scoreP x0 x3 b r ⟨k, hk⟩ else FlashSpec.scoreK x0 x1 b r (rowK k)

/-- Column `h` of row `k` of the joined value array of batch `b`. -/
def vv (b : Fin 4) (h : Fin 1024) (k : ℕ) : ℝ :=
  if hk : k < 10 then (x4 (ix2 (⟨k, hk⟩ : Fin 10) h)).toReal else (x2 (ix3 b (rowK k) h)).toReal

/-- With real arguments the score array holds the real scores. -/
theorem v6_real (h0 : FlashSpec.IsReal (s := FlashSpec.SQ) x0) (h1 : FlashSpec.IsReal (s := FlashSpec.SQ) x1)
    (h3 : FlashSpec.IsReal (s := FlashSpec.SP) x3) (b : Fin 4) (r : Fin 4096) (k : Fin 4106) :
    val_main_v6 (F := Ideal) x0 x1 x3 (ix3 b r k) = ((sc x0 x1 x3 b r k.val : ℝ) : EReal) := by
  rw [v6_at]
  unfold sc
  by_cases hk : k.val < 10
  · rw [dif_pos hk]
    unfold FlashSpec.scoreP
    rw [ereal_coe_sum]
    refine Finset.sum_congr rfl fun d _ => ?_
    rw [v4_lo x1 x3 b k d hk, EReal.coe_mul]
    exact congrArg₂ (· * ·) (h0 (ix3 b r d)) (h3 (ix2 (⟨k.val, hk⟩ : Fin 10) d))
  · rw [dif_neg hk]
    unfold FlashSpec.scoreK
    rw [ereal_coe_sum]
    refine Finset.sum_congr rfl fun d _ => ?_
    rw [v4_hi x1 x3 b k d (Nat.le_of_not_lt hk), EReal.coe_mul, rowK_of_lt k (Nat.le_of_not_lt hk)]
    exact congrArg₂ (· * ·) (h0 (ix3 b r d)) (h1 _)

/-- With real arguments the joined value array holds the real values. -/
theorem v5_real (h2 : FlashSpec.IsReal (s := FlashSpec.SQ) x2) (h4 : FlashSpec.IsReal (s := FlashSpec.SP) x4)
    (b : Fin 4) (h : Fin 1024) (k : Fin 4106) :
    val_main_v5 (F := Ideal) x2 x4 (ix3 b k h) = ((vv x2 x4 b h k.val : ℝ) : EReal) := by
  unfold vv
  by_cases hk : k.val < 10
  · rw [dif_pos hk, v5_lo x2 x4 b k h hk]
    exact h4 _
  · rw [dif_neg hk, v5_hi x2 x4 b k h (Nat.le_of_not_lt hk), rowK_of_lt k (Nat.le_of_not_lt hk)]
    exact h2 _

/-- With real arguments the maximum the reference subtracts is a real number. -/
theorem rowmax_real (h0 : FlashSpec.IsReal (s := FlashSpec.SQ) x0) (h1 : FlashSpec.IsReal (s := FlashSpec.SQ) x1)
    (h3 : FlashSpec.IsReal (s := FlashSpec.SP) x3) (b : Fin 4) (r : Fin 4096) :
    ∃ μ : ℝ, max (⊥ : EReal) (val_main_v7 (F := Ideal) x0 x1 x3 (ix2 b r)) = (μ : EReal) := by
  obtain ⟨μ, hμ⟩ := fold_max_real (fun k : Fin 4106 => sc x0 x1 x3 b r k.val) Finset.univ
    ⟨⟨0, by norm_num⟩, Finset.mem_univ _⟩
  refine ⟨μ, ?_⟩
  rw [v7_at, max_eq_right bot_le, ← hμ]
  exact congrArg (fun f => (Finset.univ : Finset (Fin 4106)).fold max (⊥ : EReal) f)
    (funext fun k => v6_real x0 x1 x3 h0 h1 h3 b r k)

/-- The reference's result at (b, r, h): the ratio of the exponential-weighted sum of the 4106 joined value rows to
    the sum of the 4106 exponentials. -/
theorem ref_at (h0 : FlashSpec.IsReal (s := FlashSpec.SQ) x0) (h1 : FlashSpec.IsReal (s := FlashSpec.SQ) x1)
    (h2 : FlashSpec.IsReal (s := FlashSpec.SQ) x2) (h3 : FlashSpec.IsReal (s := FlashSpec.SP) x3)
    (h4 : FlashSpec.IsReal (s := FlashSpec.SP) x4) (b : Fin 4) (r : Fin 4096) (h : Fin 1024) :
    val_main_v18 (F := Ideal) x0 x1 x2 x3 x4 (ix3 b r h)
      = (((∑ k : Fin 4106, Real.exp (sc x0 x1 x3 b r k.val) * vv x2 x4 b h k.val)
          / (∑ k : Fin 4106, Real.exp (sc x0 x1 x3 b r k.val)) : ℝ) : EReal) := by
  obtain ⟨μ, hμ⟩ := rowmax_real x0 x1 x3 h0 h1 h3 b r
  have e13 : ∀ k : Fin 4106, val_main_v13 (F := Ideal) x0 x1 x3 (ix3 b r k)
      = Ideal.exp (((sc x0 x1 x3 b r k.val : ℝ) : EReal) - (μ : EReal)) := fun k => by
    rw [v13_at, hμ, v6_real x0 x1 x3 h0 h1 h3]
  haveI : Nonempty (Fin 4106) := ⟨⟨0, by norm_num⟩⟩
  rw [v18_at, ← softmax_shift (fun k : Fin 4106 => sc x0 x1 x3 b r k.val) (fun k : Fin 4106 => vv x2 x4 b h k.val) μ]
  have eL : (0 : EReal) + ∑ k' : Fin 4106, val_main_v13 (F := Ideal) x0 x1 x3 (ix3 b r k')
      = 0 + ∑ k' : Fin 4106, Ideal.exp (((sc x0 x1 x3 b r k'.val : ℝ) : EReal) - (μ : EReal)) :=
    congrArg (0 + ·) (Finset.sum_congr rfl fun k _ => e13 k)
  rw [eL]
  exact Finset.sum_congr rfl fun k _ => by rw [e13 k, v5_real x2 x4 h2 h4 b h k]

/-! ## The 4106 rows as ten prefix rows and eight tiles of 512 -/

/-- A sum over the first `512·n` naturals, taken 512 at a time. -/
theorem sum_range_tiles (F : ℕ → ℝ) (n : ℕ) :
    ∑ x ∈ Finset.range (512 * n), F x = ∑ t ∈ Finset.range n, ∑ c : Fin 512, F (512 * t + c.val) := by
  induction n with
  | zero => simp
  | succ n ih =>
    rw [Nat.mul_succ, Finset.sum_range_add, ih, Finset.sum_range_succ (fun t => ∑ c : Fin 512, F (512 * t + c.val)) n,
      Fin.sum_univ_eq_sum_range (fun c => F (512 * n + c)) 512]

/-- A sum over the 4106 joined rows: the ten prefix rows, then eight tiles of 512 rows. -/
theorem sum_rows (g : ℕ → ℝ) :
    ∑ j : Fin 4106, g j.val
      = ∑ j : Fin 10, g j.val + ∑ t ∈ Finset.range 8, ∑ c : Fin 512, g (10 + (512 * t + c.val)) := by
  rw [Fin.sum_univ_eq_sum_range g 4106, show (4106 : ℕ) = 10 + 512 * 8 from rfl, Finset.sum_range_add,
    sum_range_tiles (fun x => g (10 + x)) 8, Fin.sum_univ_eq_sum_range g 10]

/-- The sum of the 4106 exponentials is the specification's denominator over the prefix and all eight tiles. -/
theorem Z_eq (b : Fin 4) (r : Fin 4096) :
    ∑ k : Fin 4106, Real.exp (sc x0 x1 x3 b r k.val) = FlashSpec.Zn x0 x1 x3 8 b r := by
  rw [sum_rows (fun k => Real.exp (sc x0 x1 x3 b r k))]
  unfold FlashSpec.Zn
  refine congrArg₂ (· + ·) ?_ ?_
  · refine Finset.sum_congr rfl fun j _ => ?_
    show Real.exp (sc x0 x1 x3 b r j.val) = _
    unfold sc
    rw [dif_pos j.isLt]
  · refine Finset.sum_congr rfl fun t _ => Finset.sum_congr rfl fun c _ => ?_
    show Real.exp (sc x0 x1 x3 b r (10 + (512 * t + c.val))) = _
    unfold sc
    rw [dif_neg (by omega), rowK_tile]

/-- The exponential-weighted sum of the 4106 joined value rows is the specification's numerator. -/
theorem W_eq (b : Fin 4) (r : Fin 4096) (h : Fin 1024) :
    ∑ k : Fin 4106, Real.exp (sc x0 x1 x3 b r k.val) * vv x2 x4 b h k.val = FlashSpec.Wn x0 x1 x2 x3 x4 8 b r h := by
  rw [sum_rows (fun k => Real.exp (sc x0 x1 x3 b r k) * vv x2 x4 b h k)]
  unfold FlashSpec.Wn
  refine congrArg₂ (· + ·) ?_ ?_
  · refine Finset.sum_congr rfl fun j _ => ?_
    show Real.exp (sc x0 x1 x3 b r j.val) * vv x2 x4 b h j.val = _
    unfold sc vv
    rw [dif_pos j.isLt, dif_pos j.isLt]
  · refine Finset.sum_congr rfl fun t _ => Finset.sum_congr rfl fun c _ => ?_
    show Real.exp (sc x0 x1 x3 b r (10 + (512 * t + c.val))) * vv x2 x4 b h (10 + (512 * t + c.val)) = _
    unfold sc vv
    rw [dif_neg (by omega), dif_neg (by omega), rowK_tile]

/-- The reference program's result is the specification. -/
theorem ref_eq_G
    (h0 : FlashSpec.IsReal (s := FlashSpec.SQ) x0) (h1 : FlashSpec.IsReal (s := FlashSpec.SQ) x1)
    (h2 : FlashSpec.IsReal (s := FlashSpec.SQ) x2) (h3 : FlashSpec.IsReal (s := FlashSpec.SP) x3)
    (h4 : FlashSpec.IsReal (s := FlashSpec.SP) x4) :
    Cert.ReferenceIdeal.Read.val_main_v18 (F := Ideal) x0 x1 x2 x3 x4 = FlashSpec.G x0 x1 x2 x3 x4 := by
  funext i
  obtain ⟨b, r, h, rfl⟩ : ∃ b r h, i = ix3 b r h := ⟨i 0, i 1, i 2, eq_ix3 i⟩
  rw [ref_at x0 x1 x2 x3 x4 h0 h1 h2 h3 h4 b r h, Z_eq, W_eq]
  rfl

end

end Cert.ReferenceIdeal.RefValue

end
-- ==== Proof.lean ====
/-
  Blocked attention with an online softmax against plain softmax attention, equal on the extended reals.

  Both programs compute, for every batch `b`, query row `r` and column `h`, the softmax-weighted average of the
  value rows — ten learned prefix rows followed by the 4096 rows of the batch — with scores `query · key`.  The
  reference forms all 4106 scores of a row, subtracts their maximum, exponentiates, divides by the row sum and
  multiplies by the value rows.  The kernel visits the key/value rows in nine chunks (the prefix, then eight tiles
  of 512) and keeps a running maximum `m`, denominator `l` and numerator `a`, rescaling `l` and `a` by
  `exp (m_old - m_new)` whenever the maximum grows, and stores `a / l` after the last tile.

  For finite inputs every score is a real number, so both maxima are real numbers, and
  `exp (σ - μ) = exp (-μ) · exp σ`: a common shift `μ` only multiplies numerator and denominator by `exp (-μ)`.
  Hence both results are `W / Z`, with `Z = ∑ exp σ_j` and `W = ∑ exp σ_j · v_j` over all rows `j`
  (Proof/Spec.lean), whatever the two maxima are.  The kernel side is an induction over the grid points of one
  query tile (Proof/KernelRun.lean, over the row algebra of Proof/RowTile.lean, Proof/RowPrefix.lean and
  Proof/OnlineSoftmax.lean); the reference side reads its operations at an index and splits the sums over the
  4106 rows into the prefix and the eight tiles (Proof/RefValue.lean).  Finiteness of the inputs is what makes the
  scores real (Proof/Finite.lean); on the extended reals the law would fail at infinite scores.

  The three frames are the generated ones; the idealization rewrote no operation, so there is nothing to preserve.
-/
import proofs.«150562_j42571715837963_2_alg».proof.Defs
import proofs.«150562_j42571715837963_2_alg».proof.Proof.Gen.Kernel
import proofs.«150562_j42571715837963_2_alg».proof.Proof.Gen.Kernel.Skeleton
import proofs.«150562_j42571715837963_2_alg».proof.Proof.Gen.Kernel.Launch
import proofs.«150562_j42571715837963_2_alg».proof.Proof.Gen.Kernel.Points
import proofs.«150562_j42571715837963_2_alg».proof.Proof.Gen.Kernel.Frame
import proofs.«150562_j42571715837963_2_alg».proof.Proof.Gen.KernelIdeal
import proofs.«150562_j42571715837963_2_alg».proof.Proof.Gen.KernelIdeal.Skeleton
import proofs.«150562_j42571715837963_2_alg».proof.Proof.Gen.KernelIdeal.Launch
import proofs.«150562_j42571715837963_2_alg».proof.Proof.Gen.KernelIdeal.Points
import proofs.«150562_j42571715837963_2_alg».proof.Proof.Gen.KernelIdeal.Frame
import proofs.«150562_j42571715837963_2_alg».proof.Proof.Gen.ReferenceIdeal
import proofs.«150562_j42571715837963_2_alg».proof.Proof.Gen.Pre_finite_inputs
import proofs.«150562_j42571715837963_2_alg».proof.Proof.Gen.KernelIdeal.Value
import proofs.«150562_j42571715837963_2_alg».proof.Proof.Gen.ReferenceIdeal.Run
import proofs.«150562_j42571715837963_2_alg».proof.Proof.Gen.ReferenceIdeal.Read
import proofs.«150562_j42571715837963_2_alg».proof.Proof.KernelRun
import proofs.«150562_j42571715837963_2_alg».proof.Proof.RefValue
import proofs.«150562_j42571715837963_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on finite arguments both programs end with the specification of those arguments in
    their result arrays: the kernel by its run, the reference by its run read at an index. -/
theorem algebraic : Cert.algebraic_KernelIdeal_ReferenceIdeal := by
  intro m ρ m' ρ' hpre hagree
  refine ⟨fun c => FlashSpec.G (Cert.KernelIdeal.Run.A0 m c) (Cert.KernelIdeal.Run.A1 m c) (Cert.KernelIdeal.Run.A2 m c)
    (Cert.KernelIdeal.Run.A3 m c) (Cert.KernelIdeal.Run.A4 m c), Cert.KernelIdeal.Run.run m ρ hpre, ?_⟩
  refine (θ_run Cert.ReferenceIdeal.defs _ _).mono (fun _ h c => ⟨?_, (h c).2⟩)
    (Cert.ReferenceIdeal.Value.run (F := Ideal) m' ρ')
  obtain ⟨r0, r1, r2, r3, r4⟩ := FlashFinite.isReal_of_pre m hpre c
  obtain ⟨a0, a1, a2, a3, a4⟩ := hagree c
  rw [(h c).1, Cert.ReferenceIdeal.Read.val_main_v18_eq, a0, a1, a2, a3, a4]
  exact Cert.ReferenceIdeal.RefValue.ref_eq_G _ _ _ _ _ r0 r1 r2 r3 r4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
